-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S32x16 .f32) (main_arg6 : FVec F S16 .f32) (main_arg7 : FVec F S16x1 .f32) (main_arg8 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg7
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S3200000 .f32) (main_arg3 : FVec F S128x32 .f32) (main_arg4 : FVec F S32 .f32) (main_arg5 : FVec F S32x16 .f32) (main_arg6 : FVec F S16 .f32) (main_arg7 : FVec F S16x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 91
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S100000, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x32, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x32, .f32⟩
  | .hbm, ⟨63, _⟩ => ⟨S3300000x1, .f32⟩
  | .hbm, ⟨64, _⟩ => ⟨S3300000x32, .f32⟩
  | .hbm, ⟨65, _⟩ => ⟨S3300000x32, .f32⟩
  | .hbm, ⟨66, _⟩ => ⟨S_, .f32⟩
  | .hbm, ⟨67, _⟩ => ⟨S100000x32, .f32⟩
  | .hbm, ⟨68, _⟩ => ⟨S3300000x1, .i32⟩
  | .hbm, ⟨69, _⟩ => ⟨S100000x32, .f32⟩
  | .hbm, ⟨70, _⟩ => ⟨S1x32, .f32⟩
  | .hbm, ⟨71, _⟩ => ⟨S100000x16, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x16, .f32⟩
  | .hbm, ⟨81, _⟩ => ⟨S3300000x1, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S1x1, .f32⟩
  | .hbm, ⟨90, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S1_S1x1 : S1.ShapeCasts S1x1
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x16_S10000x16_1_0_0_1_n_n_wf : DotDims.WF S10000x32 S32x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S100000, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x32, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x32, .f32⟩
  | .hbm, ⟨63, _⟩ => ⟨S3300000x1, .f32⟩
  | .hbm, ⟨64, _⟩ => ⟨S3300000x32, .f32⟩
  | .hbm, ⟨65, _⟩ => ⟨S3300000x32, .f32⟩
  | .hbm, ⟨66, _⟩ => ⟨S_, .f32⟩
  | .hbm, ⟨67, _⟩ => ⟨S100000x32, .f32⟩
  | .hbm, ⟨68, _⟩ => ⟨S3300000x1, .i32⟩
  | .hbm, ⟨69, _⟩ => ⟨S100000x32, .f32⟩
  | .hbm, ⟨70, _⟩ => ⟨S1x32, .f32⟩
  | .hbm, ⟨71, _⟩ => ⟨S100000x32, .f32⟩
  | .hbm, ⟨72, _⟩ => ⟨S100000x32, .f32⟩
  | .hbm, ⟨73, _⟩ => ⟨S_, .f32⟩
  | .hbm, ⟨74, _⟩ => ⟨S100000x32, .f32⟩
  | .hbm, ⟨75, _⟩ => ⟨S100000x32, .i1⟩
  | .hbm, ⟨76, _⟩ => ⟨S_, .f32⟩
  | .hbm, ⟨77, _⟩ => ⟨S100000x32, .f32⟩
  | .hbm, ⟨78, _⟩ => ⟨S100000x32, .f32⟩
  | .hbm, ⟨79, _⟩ => ⟨S100000x32, .f32⟩
  | .hbm, ⟨80, _⟩ => ⟨S100000x16, .f32⟩
  | .hbm, ⟨81, _⟩ => ⟨S_, .i32⟩
  | .hbm, ⟨82, _⟩ => ⟨S3300000, .i32⟩
  | .hbm, ⟨83, _⟩ => ⟨S3300000, .i1⟩
  | .hbm, ⟨84, _⟩ => ⟨S_, .i32⟩
  | .hbm, ⟨85, _⟩ => ⟨S3300000, .i32⟩
  | .hbm, ⟨86, _⟩ => ⟨S3300000, .i32⟩
  | .hbm, ⟨87, _⟩ => ⟨S3300000, .i32⟩
  | .hbm, ⟨88, _⟩ => ⟨S3300000x1, .i32⟩
  | .hbm, ⟨89, _⟩ => ⟨S3300000x16, .f32⟩
  | .hbm, ⟨90, _⟩ => ⟨S3300000x1, .f32⟩
  | .hbm, ⟨91, _⟩ => ⟨S3300000x16, .f32⟩
  | .hbm, ⟨92, _⟩ => ⟨S3300000x16, .f32⟩
  | .hbm, ⟨93, _⟩ => ⟨S_, .f32⟩
  | .hbm, ⟨94, _⟩ => ⟨S100000x16, .f32⟩
  | .hbm, ⟨95, _⟩ => ⟨S3300000x1, .i32⟩
  | .hbm, ⟨96, _⟩ => ⟨S100000x16, .f32⟩
  | .hbm, ⟨97, _⟩ => ⟨S1x16, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000x16, .f32⟩
  | .hbm, ⟨102, _⟩ => ⟨S100000x16, .i1⟩
  | .hbm, ⟨103, _⟩ => ⟨S_, .f32⟩
  | .hbm, ⟨104, _⟩ => ⟨S100000x16, .f32⟩
  | .hbm, ⟨105, _⟩ => ⟨S100000x16, .f32⟩
  | .hbm, ⟨106, _⟩ => ⟨S100000x16, .f32⟩
  | .hbm, ⟨107, _⟩ => ⟨S100000x1, .f32⟩
  | .hbm, ⟨108, _⟩ => ⟨S1x1, .f32⟩
  | .hbm, ⟨109, _⟩ => ⟨S100000x1, .f32⟩
  | .hbm, ⟨110, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_cst_0 : Ref sig .tc := ⟨.hbm, 103, rfl⟩
abbrev main_call2_v2 : Ref sig .tc := ⟨.hbm, 104, rfl⟩
abbrev main_call2_v3 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Stages.lean ====
/-
  The two programs compute one graph-convolution network: a symmetric edge normalisation built from the edge
  list and the edge weights, then three dense transforms separated by two neighbourhood aggregations
  (gather the source rows, scale each by its edge's normalised weight, add into the target rows).
  This module names each of those stages ONCE, as a function of whole arrays at the extended reals, spelt with
  the host operations of the reference program. Both programs' runs are read back against these names, so the
  comparison of the two never opens a gather, a scatter-add or a power.
-/
import proofs.«158536_j61701500174370_1_alg».proof.ReferenceIdeal
import Idealize.ShloMosaic.PureOps.Ideal

noncomputable section

namespace Cert.Stages

open Idealize.ShloMosaic Cert.ReferenceIdeal Cert.ReferenceIdeal.Facts₀

variable [Cert.ReferenceIdeal.Facts]

/-- A float array at the extended reals, and a 32-bit integer array. -/
abbrev FV (s : Shape) : Type := FVec Ideal s .f32
abbrev IV (s : Shape) : Type := IVec s 32

/-! ## The edge list and its normalisation -/

/-- One endpoint row of the edge list (row `k` of the [2, E] table, flattened) followed by the node numbers
    0 … N-1: every node gets one self-loop after the given edges. -/
def endpoints (k : Nat) (h : S2x3200000.Slices ![k, 0] S1x3200000) (a1 : IV S2x3200000) : IV S3300000 :=
  concatenate S3300000 0
    [⟨S3200000, shapeCast S3200000 (extractStridedSlice S1x3200000 ![k, 0] a1 h) shapeCasts_S1x3200000_S3200000⟩,
     ⟨S100000, iotaInDim S100000 32 0⟩] concatenates_S3200000_S100000_S3300000_d0

/-- The source node of every edge (self-loops included). -/
def sources (a1 : IV S2x3200000) : IV S3300000 := endpoints 0 slices_S2x3200000_S1x3200000_0_0 a1
/-- The target node of every edge (self-loops included). -/
def targets (a1 : IV S2x3200000) : IV S3300000 := endpoints 1 slices_S2x3200000_S1x3200000_1_0 a1

/-- The edge weights followed by a weight 1 for each self-loop. -/
def weights (a2 : FV S3200000) : FV S3300000 :=
  concatenate S3300000 0
    [⟨S3200000, a2⟩,
     ⟨S100000, broadcastInDim S100000 ![] bcast_S_S100000 (constant (F := Ideal) S_ .f32 0x3F800000#32)⟩]
    concatenates_S3200000_S100000_S3300000_d0

/-- A node list as a gather index column: a negative entry is first moved up by N (the wrap of a negative
    index), then the list is laid as an [E', 1] column. -/
def gatherIdx (r : IV S3300000) : IVec S3300000x1 32 :=
  broadcastInDim S3300000x1 ![0] bcast_S3300000_S3300000x1_0
    (select (cmpi .slt r (broadcastInDim S3300000 ![] bcast_S_S3300000 (constantI S_ 32 0#32)))
      (addi r (broadcastInDim S3300000 ![] bcast_S_S3300000 (constantI S_ 32 100000#32))) r)

/-- A node list as a scatter index column. -/
def scatterIdx (r : IV S3300000) : IVec S3300000x1 32 :=
  broadcastInDim S3300000x1 ![0] bcast_S3300000_S3300000x1_0 r

/-- The weighted in-degree of every node: the weights added into their target nodes, from zero. -/
def degree (col : IV S3300000) (w : FV S3300000) : FV S100000 :=
  Host.scatterAdd scatter_S100000_S3300000x1_S3300000_n_0_0_1
    (broadcastInDim S100000 ![] bcast_S_S100000 (constant (F := Ideal) S_ .f32 0x00000000#32)) (scatterIdx col) w

/-- `d ^ (-1/2)` where the degree is positive, zero elsewhere. -/
def invSqrt (d : FV S100000) : FV S100000 :=
  select (cmpf .ogt d (broadcastInDim S100000 ![] bcast_S_S100000 (constant (F := Ideal) S_ .f32 0x00000000#32)))
    (Host.powf d (broadcastInDim S100000 ![] bcast_S_S100000 (constant (F := Ideal) S_ .f32 0xBF000000#32)))
    (broadcastInDim S100000 ![] bcast_S_S100000 (constant (F := Ideal) S_ .f32 0x00000000#32))

/-- The normalised weight of every edge: `dinv[source] * w * dinv[target]`. -/
def normWeights (row col : IV S3300000) (w : FV S3300000) : FV S3300000 :=
  mulf
    (mulf (Host.gather gather_S100000_S3300000x1_S3300000_n_0_n_n_0_1_1 (invSqrt (degree col w)) (gatherIdx row)) w)
    (Host.gather gather_S100000_S3300000x1_S3300000_n_0_n_n_0_1_1 (invSqrt (degree col w)) (gatherIdx col))

/-! ## Aggregation over the edges -/

/-- Width 32: row `source e` of `h`, scaled by edge `e`'s normalised weight, added into row `target e`, from zero. -/
def aggregate32 (h : FV S100000x32) (row col : IV S3300000) (nw : FV S3300000) : FV S100000x32 :=
  Host.scatterAdd scatter_S100000x32_S3300000x1_S3300000x32_1_0_0_1
    (broadcastInDim S100000x32 ![] bcast_S_S100000x32 (constant (F := Ideal) S_ .f32 0x00000000#32)) (scatterIdx col)
    (mulf (Host.gather gather_S100000x32_S3300000x1_S3300000x32_1_0_n_n_0_1_132 h (gatherIdx row))
      (broadcastInDim S3300000x32 ![0, 1] bcast_S3300000x1_S3300000x32_0_1
        (broadcastInDim S3300000x1 ![0] bcast_S3300000_S3300000x1_0 nw)))

/-- Width 16: the same aggregation. -/
def aggregate16 (h : FV S100000x16) (row col : IV S3300000) (nw : FV S3300000) : FV S100000x16 :=
  Host.scatterAdd scatter_S100000x16_S3300000x1_S3300000x16_1_0_0_1
    (broadcastInDim S100000x16 ![] bcast_S_S100000x16 (constant (F := Ideal) S_ .f32 0x00000000#32)) (scatterIdx col)
    (mulf (Host.gather gather_S100000x16_S3300000x1_S3300000x16_1_0_n_n_0_1_116 h (gatherIdx row))
      (broadcastInDim S3300000x16 ![0, 1] bcast_S3300000x1_S3300000x16_0_1
        (broadcastInDim S3300000x1 ![0] bcast_S3300000_S3300000x1_0 nw)))

/-! ## The dense transforms -/

/-- `x` where `x ≥ 0`, the literal slope times `x` elsewhere (width 32). -/
def leaky32 (x : FV S100000x32) : FV S100000x32 :=
  select (cmpf .oge x (broadcastInDim S100000x32 ![] bcast_S_S100000x32 (constant (F := Ideal) S_ .f32 0x00000000#32))) x
    (mulf (broadcastInDim S100000x32 ![] bcast_S_S100000x32 (constant (F := Ideal) S_ .f32 0x3C23D70A#32)) x)

/-- The same at width 16. -/
def leaky16 (x : FV S100000x16) : FV S100000x16 :=
  select (cmpf .oge x (broadcastInDim S100000x16 ![] bcast_S_S100000x16 (constant (F := Ideal) S_ .f32 0x00000000#32))) x
    (mulf (broadcastInDim S100000x16 ![] bcast_S_S100000x16 (constant (F := Ideal) S_ .f32 0x3C23D70A#32)) x)

/-- A bias vector laid as one row. -/
def row32 (b : FV S32) : FV S1x32 := broadcastInDim S1x32 ![1] bcast_S32_S1x32_1 b
def row16 (b : FV S16) : FV S1x16 := broadcastInDim S1x16 ![1] bcast_S16_S1x16_1 b
def row1 (b : FV S1) : FV S1x1 := broadcastInDim S1x1 ![1] bcast_S1_S1x1_1 b

/-- First transform: `x · W`. -/
def transform1 (x : FV S100000x128) (W : FV S128x32) : FV S100000x32 :=
  Host.dotGeneral (F := Ideal) dot_S100000x128_S128x32_S100000x32_1_0_0_1_n_n none x W

/-- Second transform: `leaky (a + r) · W`, the bias row `r` added to every row of `a`. -/
def transform2 (a : FV S100000x32) (r : FV S1x32) (W : FV S32x16) : FV S100000x16 :=
  Host.dotGeneral (F := Ideal) dot_S100000x32_S32x16_S100000x16_1_0_0_1_n_n none
    (leaky32 (addf a (broadcastInDim S100000x32 ![0, 1] bcast_S1x32_S100000x32_0_1 r))) W

/-- Third transform: `leaky (a + r) · W + q`, `q` the [1, 1] bias added to every row. -/
def transform3 (a : FV S100000x16) (r : FV S1x16) (W : FV S16x1) (q : FV S1x1) : FV S100000x1 :=
  addf
    (Host.dotGeneral (F := Ideal) dot_S100000x16_S16x1_S100000x1_1_0_0_1_n_n none
      (leaky16 (addf a (broadcastInDim S100000x16 ![0, 1] bcast_S1x16_S100000x16_0_1 r))) W)
    (broadcastInDim S100000x1 ![0, 1] bcast_S1x1_S100000x1_0_1 q)

/-! ## The whole network -/

/-- The result of either program as one function of the nine argument arrays. -/
def network (x : FV S100000x128) (a1 : IV S2x3200000) (a2 : FV S3200000) (W1 : FV S128x32) (b1 : FV S32)
    (W2 : FV S32x16) (b2 : FV S16) (Wfc : FV S16x1) (bfc : FV S1) : FV S100000x1 :=
  transform3
    (aggregate16
      (transform2
        (aggregate32 (transform1 x W1) (sources a1) (targets a1)
          (normWeights (sources a1) (targets a1) (weights a2)))
        (row32 b1) W2)
      (sources a1) (targets a1) (normWeights (sources a1) (targets a1) (weights a2)))
    (row16 b2) Wfc (row1 bfc)

end Cert.Stages

end
-- ==== Proof.KernelRun.lean ====
/-
  The kernel program's run with its result named. The program is three pipelined regions among stretches of
  host operations; the generated frame already carries, at every boundary between two segments, the contents of
  every buffer as a fold from the launch memory. Here the same launch is read once more at the end: besides the
  nine argument arrays (unchanged), the result buffer holds what the last boundary's fold holds at it. Stated for
  any float values; the value of that fold at the extended reals is computed in a module of its own.
-/
import proofs.«158536_j61701500174370_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; in the final state the result
    buffer holds the last boundary's contents at it and every argument array what it held at launch. -/
theorem run_named : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.KRun

end
-- ==== Proof.KernelValue.lean ====
/-
  The value the kernel program leaves in its result buffer, at the extended reals, as the network of
  `Cert.Stages` applied to the nine argument arrays.
  The generated frame names the contents of every buffer at each boundary between two segments of the program
  (W3: before the first region; W4: after it; W5, W6: around the second; W7, W8: around the third). Walking those
  boundaries forward: the edge normalisation is in place at W3; the first region leaves `x · W1`; the host
  stretch after it aggregates over the edges and lays the bias as a row; the second region leaves
  `leaky (a + b1) · W2`; the next stretch aggregates again; the third region leaves
  `leaky (a + b2) · Wfc + bfc`. Each step is one of the facts collected in `Pieces` (a region's output array as a
  whole-array transform of its input arrays; a host stretch read back at the stage names), and the buffers a
  segment does not write are carried across it unchanged.
-/
import proofs.«158536_j61701500174370_1_alg».proof.Proof.Gen.KernelIdeal.Frame
import proofs.«158536_j61701500174370_1_alg».proof.Proof.Gen.ReferenceIdeal
import proofs.«158536_j61701500174370_1_alg».proof.Proof.Stages
import Idealize.ShloMosaic.Lib.StableHlo.Run

noncomputable section

namespace Cert.KernelIdeal.KValue

open Idealize.ShloMosaic Idealize.ShloMosaic.TcCoe Idealize.SL.Sem Cert.KernelIdeal Cert.KernelIdeal.Gen
open Cert.Stages (sources targets weights normWeights aggregate32 aggregate16 transform1 transform2 transform3 row32 row16 row1 network)

/-- What the walk takes as given: each region's output array, at any entry contents `V`, is the dense transform
    of its input arrays; each host stretch, from any contents `W`, leaves the named stage in the buffer it
    computes and keeps the buffers it does not write. -/
structure Pieces : Prop where
  region0 : ∀ (V : (c : Dev nD) → (b : Ref sig .tc) → Buf (Elt Ideal) ((c : Thread nD τ).loc b)) (c : Dev nD),
    (dat0 (F := Ideal) V c).arrAt 2 cfg0.N = transform1 (V c main_arg0) (V c main_arg3)
  region1 : ∀ (V : (c : Dev nD) → (b : Ref sig .tc) → Buf (Elt Ideal) ((c : Thread nD τ).loc b)) (c : Dev nD),
    (dat1 (F := Ideal) V c).arrAt 3 cfg1.N = transform2 (V c main_v46) (V c main_v47) (V c main_arg5)
  region2 : ∀ (V : (c : Dev nD) → (b : Ref sig .tc) → Buf (Elt Ideal) ((c : Thread nD τ).loc b)) (c : Dev nD),
    (dat2 (F := Ideal) V c).arrAt 4 cfg2.N = transform3 (V c main_v61) (V c main_v62) (V c main_arg7) (V c main_v63)
  pre_sources : ∀ (W : Valuation τ sig (Elt Ideal)), StableHlo.after hostOps0_2 (StableHlo.after hostOps0_1 (StableHlo.after hostOps0 W)) (Proc.devRef .tc main_v5) = sources (W (Proc.devRef .tc main_arg1))
  pre_targets : ∀ (W : Valuation τ sig (Elt Ideal)), StableHlo.after hostOps0_2 (StableHlo.after hostOps0_1 (StableHlo.after hostOps0 W)) (Proc.devRef .tc main_v6) = targets (W (Proc.devRef .tc main_arg1))
  pre_norm : ∀ (W : Valuation τ sig (Elt Ideal)), StableHlo.after hostOps0_2 (StableHlo.after hostOps0_1 (StableHlo.after hostOps0 W)) (Proc.devRef .tc main_v32)
      = normWeights (sources (W (Proc.devRef .tc main_arg1))) (targets (W (Proc.devRef .tc main_arg1))) (weights (W (Proc.devRef .tc main_arg2)))
  pre_keep_arg0 : ∀ (W : Valuation τ sig (Elt Ideal)), StableHlo.after hostOps0_2 (StableHlo.after hostOps0_1 (StableHlo.after hostOps0 W)) (Proc.devRef .tc main_arg0) = W (Proc.devRef .tc main_arg0)
  pre_keep_arg1 : ∀ (W : Valuation τ sig (Elt Ideal)), StableHlo.after hostOps0_2 (StableHlo.after hostOps0_1 (StableHlo.after hostOps0 W)) (Proc.devRef .tc main_arg1) = W (Proc.devRef .tc main_arg1)
  pre_keep_arg2 : ∀ (W : Valuation τ sig (Elt Ideal)), StableHlo.after hostOps0_2 (StableHlo.after hostOps0_1 (StableHlo.after hostOps0 W)) (Proc.devRef .tc main_arg2) = W (Proc.devRef .tc main_arg2)
  pre_keep_arg3 : ∀ (W : Valuation τ sig (Elt Ideal)), StableHlo.after hostOps0_2 (StableHlo.after hostOps0_1 (StableHlo.after hostOps0 W)) (Proc.devRef .tc main_arg3) = W (Proc.devRef .tc main_arg3)
  pre_keep_arg4 : ∀ (W : Valuation τ sig (Elt Ideal)), StableHlo.after hostOps0_2 (StableHlo.after hostOps0_1 (StableHlo.after hostOps0 W)) (Proc.devRef .tc main_arg4) = W (Proc.devRef .tc main_arg4)
  pre_keep_arg5 : ∀ (W : Valuation τ sig (Elt Ideal)), StableHlo.after hostOps0_2 (StableHlo.after hostOps0_1 (StableHlo.after hostOps0 W)) (Proc.devRef .tc main_arg5) = W (Proc.devRef .tc main_arg5)
  pre_keep_arg6 : ∀ (W : Valuation τ sig (Elt Ideal)), StableHlo.after hostOps0_2 (StableHlo.after hostOps0_1 (StableHlo.after hostOps0 W)) (Proc.devRef .tc main_arg6) = W (Proc.devRef .tc main_arg6)
  pre_keep_arg7 : ∀ (W : Valuation τ sig (Elt Ideal)), StableHlo.after hostOps0_2 (StableHlo.after hostOps0_1 (StableHlo.after hostOps0 W)) (Proc.devRef .tc main_arg7) = W (Proc.devRef .tc main_arg7)
  pre_keep_arg8 : ∀ (W : Valuation τ sig (Elt Ideal)), StableHlo.after hostOps0_2 (StableHlo.after hostOps0_1 (StableHlo.after hostOps0 W)) (Proc.devRef .tc main_arg8) = W (Proc.devRef .tc main_arg8)
  mid1_agg : ∀ (W : Valuation τ sig (Elt Ideal)), StableHlo.after hostOps1 W (Proc.devRef .tc main_v46)
      = aggregate32 (W (Proc.devRef .tc main_v33)) (W (Proc.devRef .tc main_v5)) (W (Proc.devRef .tc main_v6)) (W (Proc.devRef .tc main_v32))
  mid1_row : ∀ (W : Valuation τ sig (Elt Ideal)), StableHlo.after hostOps1 W (Proc.devRef .tc main_v47) = row32 (W (Proc.devRef .tc main_arg4))
  mid1_keep_v5 : ∀ (W : Valuation τ sig (Elt Ideal)), StableHlo.after hostOps1 W (Proc.devRef .tc main_v5) = W (Proc.devRef .tc main_v5)
  mid1_keep_v6 : ∀ (W : Valuation τ sig (Elt Ideal)), StableHlo.after hostOps1 W (Proc.devRef .tc main_v6) = W (Proc.devRef .tc main_v6)
  mid1_keep_v32 : ∀ (W : Valuation τ sig (Elt Ideal)), StableHlo.after hostOps1 W (Proc.devRef .tc main_v32) = W (Proc.devRef .tc main_v32)
  mid1_keep_arg5 : ∀ (W : Valuation τ sig (Elt Ideal)), StableHlo.after hostOps1 W (Proc.devRef .tc main_arg5) = W (Proc.devRef .tc main_arg5)
  mid1_keep_arg6 : ∀ (W : Valuation τ sig (Elt Ideal)), StableHlo.after hostOps1 W (Proc.devRef .tc main_arg6) = W (Proc.devRef .tc main_arg6)
  mid1_keep_arg7 : ∀ (W : Valuation τ sig (Elt Ideal)), StableHlo.after hostOps1 W (Proc.devRef .tc main_arg7) = W (Proc.devRef .tc main_arg7)
  mid1_keep_arg8 : ∀ (W : Valuation τ sig (Elt Ideal)), StableHlo.after hostOps1 W (Proc.devRef .tc main_arg8) = W (Proc.devRef .tc main_arg8)
  mid2_agg : ∀ (W : Valuation τ sig (Elt Ideal)), StableHlo.after hostOps2 W (Proc.devRef .tc main_v61)
      = aggregate16 (W (Proc.devRef .tc main_v48)) (W (Proc.devRef .tc main_v5)) (W (Proc.devRef .tc main_v6)) (W (Proc.devRef .tc main_v32))
  mid2_row16 : ∀ (W : Valuation τ sig (Elt Ideal)), StableHlo.after hostOps2 W (Proc.devRef .tc main_v62) = row16 (W (Proc.devRef .tc main_arg6))
  mid2_row1 : ∀ (W : Valuation τ sig (Elt Ideal)), StableHlo.after hostOps2 W (Proc.devRef .tc main_v63) = row1 (W (Proc.devRef .tc main_arg8))
  mid2_keep_arg7 : ∀ (W : Valuation τ sig (Elt Ideal)), StableHlo.after hostOps2 W (Proc.devRef .tc main_arg7) = W (Proc.devRef .tc main_arg7)

variable (P : Pieces)
variable (m : (ℓ : Loc nD τ sig) → Buf (Elt Ideal) ℓ) (ρ : Dev nD → PrngReg) (c : Dev nD)

/-! ## Names for the intermediate arrays, as functions of the launch memory -/

/-- The sources, the targets and the normalised weights of the edges. -/
def srcs : Cert.Stages.IV Cert.ReferenceIdeal.S3300000 := sources (m ((c : Thread nD τ).loc main_arg1))
def tgts : Cert.Stages.IV Cert.ReferenceIdeal.S3300000 := targets (m ((c : Thread nD τ).loc main_arg1))
def nrm : Cert.Stages.FV Cert.ReferenceIdeal.S3300000 := normWeights (srcs m c) (tgts m c) (weights (m ((c : Thread nD τ).loc main_arg2)))
/-- The first transform, its aggregation, the second transform, its aggregation. -/
def h1 : Cert.Stages.FV Cert.ReferenceIdeal.S100000x32 := transform1 (m ((c : Thread nD τ).loc main_arg0)) (m ((c : Thread nD τ).loc main_arg3))
def a1 : Cert.Stages.FV Cert.ReferenceIdeal.S100000x32 := aggregate32 (h1 m c) (srcs m c) (tgts m c) (nrm m c)
def h2 : Cert.Stages.FV Cert.ReferenceIdeal.S100000x16 := transform2 (a1 m c) (row32 (m ((c : Thread nD τ).loc main_arg4))) (m ((c : Thread nD τ).loc main_arg5))
def a2 : Cert.Stages.FV Cert.ReferenceIdeal.S100000x16 := aggregate16 (h2 m c) (srcs m c) (tgts m c) (nrm m c)

/-! ## Before the first region (W3) -/

include P

theorem w3_v5 : W3 m ρ c (Proc.devRef .tc main_v5) = srcs m c := P.pre_sources (W0 m ρ c)
theorem w3_v6 : W3 m ρ c (Proc.devRef .tc main_v6) = tgts m c := P.pre_targets (W0 m ρ c)
theorem w3_v32 : W3 m ρ c (Proc.devRef .tc main_v32) = nrm m c := P.pre_norm (W0 m ρ c)
theorem w3_arg0 : W3 m ρ c (Proc.devRef .tc main_arg0) = (m ((c : Thread nD τ).loc main_arg0)) := P.pre_keep_arg0 (W0 m ρ c)
theorem w3_arg1 : W3 m ρ c (Proc.devRef .tc main_arg1) = (m ((c : Thread nD τ).loc main_arg1)) := P.pre_keep_arg1 (W0 m ρ c)
theorem w3_arg2 : W3 m ρ c (Proc.devRef .tc main_arg2) = (m ((c : Thread nD τ).loc main_arg2)) := P.pre_keep_arg2 (W0 m ρ c)
theorem w3_arg3 : W3 m ρ c (Proc.devRef .tc main_arg3) = (m ((c : Thread nD τ).loc main_arg3)) := P.pre_keep_arg3 (W0 m ρ c)
theorem w3_arg4 : W3 m ρ c (Proc.devRef .tc main_arg4) = (m ((c : Thread nD τ).loc main_arg4)) := P.pre_keep_arg4 (W0 m ρ c)
theorem w3_arg5 : W3 m ρ c (Proc.devRef .tc main_arg5) = (m ((c : Thread nD τ).loc main_arg5)) := P.pre_keep_arg5 (W0 m ρ c)
theorem w3_arg6 : W3 m ρ c (Proc.devRef .tc main_arg6) = (m ((c : Thread nD τ).loc main_arg6)) := P.pre_keep_arg6 (W0 m ρ c)
theorem w3_arg7 : W3 m ρ c (Proc.devRef .tc main_arg7) = (m ((c : Thread nD τ).loc main_arg7)) := P.pre_keep_arg7 (W0 m ρ c)
theorem w3_arg8 : W3 m ρ c (Proc.devRef .tc main_arg8) = (m ((c : Thread nD τ).loc main_arg8)) := P.pre_keep_arg8 (W0 m ρ c)

/-! ## After the first region (W4): its output is `x · W1`; the rest is as before -/

theorem w4_v33 : W4 m ρ c (Proc.devRef .tc main_v33) = h1 m c :=
  (W4_arr m ρ c 2).trans ((P.region0 (V3 m ρ) c).trans (by
    show transform1 (W3 m ρ c (Proc.devRef .tc main_arg0)) (W3 m ρ c (Proc.devRef .tc main_arg3)) = _
    rw [w3_arg0 P m ρ c, w3_arg3 P m ρ c]; rfl))
theorem w4_v5 : W4 m ρ c (Proc.devRef .tc main_v5) = srcs m c := (W4_of_ne m ρ c main_v5 (by decide)).trans (w3_v5 P m ρ c)
theorem w4_v6 : W4 m ρ c (Proc.devRef .tc main_v6) = tgts m c := (W4_of_ne m ρ c main_v6 (by decide)).trans (w3_v6 P m ρ c)
theorem w4_v32 : W4 m ρ c (Proc.devRef .tc main_v32) = nrm m c := (W4_of_ne m ρ c main_v32 (by decide)).trans (w3_v32 P m ρ c)
theorem w4_arg4 : W4 m ρ c (Proc.devRef .tc main_arg4) = (m ((c : Thread nD τ).loc main_arg4)) := (W4_of_ne m ρ c main_arg4 (by decide)).trans (w3_arg4 P m ρ c)
theorem w4_arg5 : W4 m ρ c (Proc.devRef .tc main_arg5) = (m ((c : Thread nD τ).loc main_arg5)) := (W4_of_ne m ρ c main_arg5 (by decide)).trans (w3_arg5 P m ρ c)
theorem w4_arg6 : W4 m ρ c (Proc.devRef .tc main_arg6) = (m ((c : Thread nD τ).loc main_arg6)) := (W4_of_ne m ρ c main_arg6 (by decide)).trans (w3_arg6 P m ρ c)
theorem w4_arg7 : W4 m ρ c (Proc.devRef .tc main_arg7) = (m ((c : Thread nD τ).loc main_arg7)) := (W4_of_ne m ρ c main_arg7 (by decide)).trans (w3_arg7 P m ρ c)
theorem w4_arg8 : W4 m ρ c (Proc.devRef .tc main_arg8) = (m ((c : Thread nD τ).loc main_arg8)) := (W4_of_ne m ρ c main_arg8 (by decide)).trans (w3_arg8 P m ρ c)

/-! ## Before the second region (W5): the first aggregation and the bias row -/

theorem w5_v46 : W5 m ρ c (Proc.devRef .tc main_v46) = a1 m c :=
  (P.mid1_agg (W4 m ρ c)).trans (by rw [w4_v33 P m ρ c, w4_v5 P m ρ c, w4_v6 P m ρ c, w4_v32 P m ρ c]; rfl)
theorem w5_v47 : W5 m ρ c (Proc.devRef .tc main_v47) = row32 (m ((c : Thread nD τ).loc main_arg4)) :=
  (P.mid1_row (W4 m ρ c)).trans (by rw [w4_arg4 P m ρ c])
theorem w5_v5 : W5 m ρ c (Proc.devRef .tc main_v5) = srcs m c := (P.mid1_keep_v5 (W4 m ρ c)).trans (w4_v5 P m ρ c)
theorem w5_v6 : W5 m ρ c (Proc.devRef .tc main_v6) = tgts m c := (P.mid1_keep_v6 (W4 m ρ c)).trans (w4_v6 P m ρ c)
theorem w5_v32 : W5 m ρ c (Proc.devRef .tc main_v32) = nrm m c := (P.mid1_keep_v32 (W4 m ρ c)).trans (w4_v32 P m ρ c)
theorem w5_arg5 : W5 m ρ c (Proc.devRef .tc main_arg5) = (m ((c : Thread nD τ).loc main_arg5)) := (P.mid1_keep_arg5 (W4 m ρ c)).trans (w4_arg5 P m ρ c)
theorem w5_arg6 : W5 m ρ c (Proc.devRef .tc main_arg6) = (m ((c : Thread nD τ).loc main_arg6)) := (P.mid1_keep_arg6 (W4 m ρ c)).trans (w4_arg6 P m ρ c)
theorem w5_arg7 : W5 m ρ c (Proc.devRef .tc main_arg7) = (m ((c : Thread nD τ).loc main_arg7)) := (P.mid1_keep_arg7 (W4 m ρ c)).trans (w4_arg7 P m ρ c)
theorem w5_arg8 : W5 m ρ c (Proc.devRef .tc main_arg8) = (m ((c : Thread nD τ).loc main_arg8)) := (P.mid1_keep_arg8 (W4 m ρ c)).trans (w4_arg8 P m ρ c)

/-! ## After the second region (W6) -/

theorem w6_v48 : W6 m ρ c (Proc.devRef .tc main_v48) = h2 m c :=
  (W6_arr m ρ c 3).trans ((P.region1 (V5 m ρ) c).trans (by
    show transform2 (W5 m ρ c (Proc.devRef .tc main_v46)) (W5 m ρ c (Proc.devRef .tc main_v47)) (W5 m ρ c (Proc.devRef .tc main_arg5)) = _
    rw [w5_v46 P m ρ c, w5_v47 P m ρ c, w5_arg5 P m ρ c]; rfl))
theorem w6_v5 : W6 m ρ c (Proc.devRef .tc main_v5) = srcs m c := (W6_of_ne m ρ c main_v5 (by decide)).trans (w5_v5 P m ρ c)
theorem w6_v6 : W6 m ρ c (Proc.devRef .tc main_v6) = tgts m c := (W6_of_ne m ρ c main_v6 (by decide)).trans (w5_v6 P m ρ c)
theorem w6_v32 : W6 m ρ c (Proc.devRef .tc main_v32) = nrm m c := (W6_of_ne m ρ c main_v32 (by decide)).trans (w5_v32 P m ρ c)
theorem w6_arg6 : W6 m ρ c (Proc.devRef .tc main_arg6) = (m ((c : Thread nD τ).loc main_arg6)) := (W6_of_ne m ρ c main_arg6 (by decide)).trans (w5_arg6 P m ρ c)
theorem w6_arg7 : W6 m ρ c (Proc.devRef .tc main_arg7) = (m ((c : Thread nD τ).loc main_arg7)) := (W6_of_ne m ρ c main_arg7 (by decide)).trans (w5_arg7 P m ρ c)
theorem w6_arg8 : W6 m ρ c (Proc.devRef .tc main_arg8) = (m ((c : Thread nD τ).loc main_arg8)) := (W6_of_ne m ρ c main_arg8 (by decide)).trans (w5_arg8 P m ρ c)

/-! ## Before the third region (W7): the second aggregation and the two bias rows -/

theorem w7_v61 : W7 m ρ c (Proc.devRef .tc main_v61) = a2 m c :=
  (P.mid2_agg (W6 m ρ c)).trans (by rw [w6_v48 P m ρ c, w6_v5 P m ρ c, w6_v6 P m ρ c, w6_v32 P m ρ c]; rfl)
theorem w7_v62 : W7 m ρ c (Proc.devRef .tc main_v62) = row16 (m ((c : Thread nD τ).loc main_arg6)) :=
  (P.mid2_row16 (W6 m ρ c)).trans (by rw [w6_arg6 P m ρ c])
theorem w7_v63 : W7 m ρ c (Proc.devRef .tc main_v63) = row1 (m ((c : Thread nD τ).loc main_arg8)) :=
  (P.mid2_row1 (W6 m ρ c)).trans (by rw [w6_arg8 P m ρ c])
theorem w7_arg7 : W7 m ρ c (Proc.devRef .tc main_arg7) = (m ((c : Thread nD τ).loc main_arg7)) := (P.mid2_keep_arg7 (W6 m ρ c)).trans (w6_arg7 P m ρ c)

/-! ## After the third region (W8): the result -/

/-- The result buffer at the last boundary is the network of the launch memory's argument arrays. -/
theorem result : W8 m ρ c (Proc.devRef .tc main_v64)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_arr m ρ c 4).trans ((P.region2 (V7 m ρ) c).trans (by
    show transform3 (W7 m ρ c (Proc.devRef .tc main_v61)) (W7 m ρ c (Proc.devRef .tc main_v62)) (W7 m ρ c (Proc.devRef .tc main_arg7)) (W7 m ρ c (Proc.devRef .tc main_v63)) = _
    rw [w7_v61 P m ρ c, w7_v62 P m ρ c, w7_arg7 P m ρ c, w7_v63 P m ρ c]; rfl))

end Cert.KernelIdeal.KValue

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Region0.lean ====
/-
  THE VALUE OF REGION 0 at the extended reals: the first dense transform `x · W1`.

  The region runs ten grid points. Point t reads rows 10000·t … 10000·t + 9999 of the [100000, 128] input (a row
  tile), the whole [128, 32] weight array, multiplies them into a zero accumulator and writes the [10000, 32]
  product back as rows 10000·t … 10000·t + 9999 of the output array. At the extended reals a format change is the
  identity and a product into the zero accumulator is, entry by entry, the finite sum over the contracted coordinate —
  the same sum the whole-array product has at that row. So each point writes its block of ONE whole-array function,
  the ten blocks cover the output (row r belongs to point r / 10000), and the output array ends holding the whole
  product.
-/
import proofs.«158536_j61701500174370_1_alg».proof.Proof.Gen.KernelIdeal.Frame
import proofs.«158536_j61701500174370_1_alg».proof.Proof.Gen.ReferenceIdeal
import proofs.«158536_j61701500174370_1_alg».proof.Proof.Stages
import proofs.«158536_j61701500174370_1_alg».proof.Proof.LibTileMatmul
import Idealize.ShloMosaic.Lib.Pipeline.Value
import Idealize.ShloMosaic.Lib.ValueIdx

noncomputable section

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

/-- The zero offsets of a whole-buffer access, as the constant function. -/
theorem hz : (![0, 0] : Fin 2 → Nat) = fun _ => 0 := funext fun a => by fin_cases a <;> rfl

/-- The block indices of the three windows, decided over the grid: the two row-tile windows sit at block (t, 0), the
    weight window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's arithmetic at an entry: a tile whose row p is row i of X, multiplied with W into the zero accumulator,
    has at (p, q) the entry (i, q) of the whole product X · W. -/
theorem pay_apply (X : Cert.Stages.FV Cert.ReferenceIdeal.S100000x128) (W : Cert.Stages.FV Cert.ReferenceIdeal.S128x32)
    (x0 : Vec Ideal S10000x128 .f32) (p : Fin 10000) (q : Fin 32) (i : Fin 100000)
    (h0 : ∀ k : Fin 128, x0 (ix2 p k) = X (ix2 i k)) :
    k0_pay1 (F := Ideal) x0 W (ix2 p q) = Cert.Stages.transform1 X W (ix2 i q) := by
  unfold k0_pay1 Cert.Stages.transform1
  exact TileMatmul.matmul_tile_eq_dotGeneral _ _ none none _ _ X W p q i (fun c => h0 c) (fun c => rfl)

/-- Window 0's block at point t is rows 10000·t … 10000·t + 9999 of the array. -/
theorem iblk_rows (V : (c : Dev nD) → (b : Ref sig .tc) → Buf (Elt Ideal) ((c : Thread nD τ).loc b)) (c : Dev nD)
    (t : Fin cfg0.N) (p : Fin 10000) (k : Fin 128) (i : Fin 100000) (hi : i.val = 10000 * t.val + p.val) :
    (iblk0 (F := Ideal) V c 0 t : Vec Ideal S10000x128 .f32) (ix2 p k) = (V c main_arg0 : S100000x128.Idx → EReal) (ix2 i k) := by
  obtain ⟨e0, e1, -⟩ := idx_facts t
  unfold iblk0
  rw [View.read_apply]
  show (V c main_arg0 : S100000x128.Idx → EReal) _ = (V c main_arg0 : S100000x128.Idx → EReal) _
  congr 1
  funext a
  apply Fin.ext
  match a with
  | ⟨0, _⟩ => show win0_0.index t (0 : Fin 2) * 10000 + 1 * p.val = i.val; rw [e0, hi]; omega
  | ⟨1, _⟩ => show win0_0.index t (1 : Fin 2) * 128 + 1 * k.val = k.val; rw [e1]; omega

/-- Window 1's block at every point is the whole weight array. -/
theorem iblk_weights (V : (c : Dev nD) → (b : Ref sig .tc) → Buf (Elt Ideal) ((c : Thread nD τ).loc b)) (c : Dev nD)
    (t : Fin cfg0.N) :
    (iblk0 (F := Ideal) V c 1 t : Vec Ideal S128x32 .f32) = (V c main_arg3 : S128x32.Idx → EReal) := by
  obtain ⟨-, -, e2, e3, -⟩ := idx_facts t
  funext y
  unfold iblk0
  rw [View.read_apply]
  show (V c main_arg3 : S128x32.Idx → EReal) _ = (V c main_arg3 : S128x32.Idx → EReal) _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 32 + 1 * (y 1).val = (y 1).val; rw [e3]; omega

/-- A [10000, 32] tile whose row p is row 10000·t + p of G is what the output window's block at point t reads of G. -/
theorem tile_read_eq (t : Fin cfg0.N) (Y : Vec Ideal S10000x32 .f32) (G : S100000x32.Idx → EReal)
    (h : ∀ (p : Fin 10000) (q : Fin 32) (i : Fin 100000), i.val = 10000 * t.val + p.val → Y (ix2 p q) = G (ix2 i q)) :
    (cfg0.win 2).cut (grid0.coords t) Y = ((cfg0.win 2).blk t).view.read (Elt Ideal) G := by
  obtain ⟨-, -, -, -, e4, e5⟩ := idx_facts t
  have hN : grid0.N = 10 := N_0
  have ht : t.val < 10 := hN ▸ t.isLt
  funext j
  have hj0 : (j 0).val < 10000 := (j 0).isLt
  have hj1 : (j 1).val < 32 := (j 1).isLt
  rw [View.read_apply]
  show Y ((cfg0.win 2).xinj (grid0.coords t) j) = G (((cfg0.win 2).blk t).view.emb j)
  have hl : (cfg0.win 2).xinj (grid0.coords t) j = ix2 (⟨(j 0).val, hj0⟩ : Fin 10000) (⟨(j 1).val, hj1⟩ : Fin 32) := by
    funext a
    match a with
    | ⟨0, _⟩ => rfl
    | ⟨1, _⟩ => rfl
  have hr : ((cfg0.win 2).blk t).view.emb j
      = ix2 (⟨10000 * t.val + (j 0).val, by omega⟩ : Fin 100000) (⟨(j 1).val, hj1⟩ : Fin 32) := by
    funext a
    apply Fin.ext
    match a with
    | ⟨0, _⟩ => show win0_2.index t (0 : Fin 2) * 10000 + 1 * (j 0).val = 10000 * t.val + (j 0).val; rw [e4]; omega
    | ⟨1, _⟩ => show win0_2.index t (1 : Fin 2) * 32 + 1 * (j 1).val = (j 1).val; rw [e5]; omega
  rw [hl, hr]
  exact h _ _ _ rfl

/-- What the body leaves at point t, from tiles that are the stated rows of X and the whole of W, is block t of X · W. -/
theorem out_tile_eq (X : Cert.Stages.FV Cert.ReferenceIdeal.S100000x128) (W : Cert.Stages.FV Cert.ReferenceIdeal.S128x32)
    (t : Fin cfg0.N) (x0 : Vec Ideal S10000x128 .f32) (x1 : Vec Ideal S128x32 .f32)
    (h0 : ∀ (p : Fin 10000) (k : Fin 128) (i : Fin 100000), i.val = 10000 * t.val + p.val → x0 (ix2 p k) = X (ix2 i k))
    (h1 : x1 = W) :
    (cfg0.win 2).cut (grid0.coords t) (out0_2 (F := Ideal) x0 x1)
      = ((cfg0.win 2).blk t).view.read (Elt Ideal) (Cert.Stages.transform1 X W) := by
  subst h1
  unfold out0_2
  rw [View.canon_unit_zero hz]
  simp only [View.ld_unit_zero (S := S10000x128) hz, View.ld_unit_zero (S := S128x32) hz]
  exact tile_read_eq t _ _ (fun p q i hi => pay_apply X x1 x0 p q i (fun k => h0 p k i hi))

/-- WHAT POINT t WRITES BACK is block t of the first transform of the region's input arrays. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Stages.transform1 (V c main_arg0) (V c main_arg3)) := by
  show (cfg0.win 2).cut (grid0.coords t) ((dat0 V c).after 2 t) = _
  rw [after0_2]
  exact out_tile_eq (V c main_arg0) (V c main_arg3) t _ _ (fun p k i hi => iblk_rows V c t p k i hi) (iblk_weights V c t)

/-- An index of the output array is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v33).slice (win0_2.rect t)).set ↔ _
  rw [View.set_slice_whole, Rect.mem_set_unit]
  exact Iff.rfl

/-- Row r of the output array is written by point r / 10000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 10 := N_0
  obtain ⟨t, ht⟩ : ∃ t : Fin cfg0.N, t.val = (i 0).val / 10000 :=
    ⟨⟨(i 0).val / 10000, by show _ < grid0.N; rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 32 ≤ (i 1).val ∧ (i 1).val < win0_2.index t (1 : Fin 2) * 32 + 32
    rw [e5]; omega

/-- THE VALUE OF REGION 0: after the ten grid points the output window's array is the first transform of the region's
    input arrays. -/
theorem value (V : (c : Dev nD) → (b : Ref sig .tc) → Buf (Elt Ideal) ((c : Thread nD τ).loc b)) (c : Dev nD) :
    (Gen.dat0 (F := Ideal) V c).arrAt 2 cfg0.N = Cert.Stages.transform1 (V c main_arg0) (V c main_arg3) :=
  (dat0 (F := Ideal) V c).arrAt_eq_of_cover 2 (Cert.Stages.transform1 (V c main_arg0) (V c main_arg3))
    (fun t _ => flushed_eq V c t) cover

end Cert.KernelIdeal.Region0

end
-- ==== Proof.Region1.lean ====
/-
  Region 1 of the kernel program at the extended reals: the second dense transform, tile by tile.

  The region's grid has ten points. Point `t` reads rows `10000 t … 10000 t + 9999` of the aggregated array (a
  [10000, 32] tile), the whole [1, 32] bias row and the whole [32, 16] weight matrix, and writes rows
  `10000 t … 10000 t + 9999` of the [100000, 16] output. At one entry `(p, q)` of the tile the body computes
  `∑ k, leaky (x (p, k) + b (0, k)) * W (k, q)`: the format changes on the way into the product are the identity on
  extended reals and the product into a zero accumulator is the plain finite sum over the contracted axis. The
  whole-array transform of the network at `(i, q)` is the same sum over the whole arrays' entries, so the tile at
  point `t` is block `t` of the whole-array transform, and the ten blocks cover the output (row `r` lies in the
  block of point `r / 10000`). No finiteness is used: both sides are the same sums and products, term by term.
-/
import proofs.«158536_j61701500174370_1_alg».proof.Proof.Gen.KernelIdeal.Frame
import proofs.«158536_j61701500174370_1_alg».proof.Proof.Gen.ReferenceIdeal
import proofs.«158536_j61701500174370_1_alg».proof.Proof.Stages
import Idealize.ShloMosaic.Lib.Pipeline.Value
import Idealize.ShloMosaic.Lib.ValueIdx
import Idealize.ShloMosaic.PureOps.Ideal.Laws

noncomputable section

namespace Cert.KernelIdeal.Region1
open Idealize.ShloMosaic Idealize.ShloMosaic.TcCoe Idealize.SL.Sem Cert.KernelIdeal Cert.KernelIdeal.Gen
open Idealize.ShloMosaic.ValueIdx
open scoped BigOperators

/-- The leaky rectifier on one extended real: the value itself where it is at least zero, the literal slope
    times the value elsewhere. -/
def leaky (z : Ideal .f32) : Ideal .f32 :=
  Scalar.select (FloatOps.cmpf .oge z (Ideal.ofBits .f32 0x00000000#32)) z (Ideal.ofBits .f32 0x3C23D70A#32 * z)

/-- The body's arithmetic at one entry of the output tile: the row of the input tile plus the bias row, rectified,
    against the column of the weights. -/
theorem pay_apply (x0 : Vec Ideal S10000x32 .f32) (x1 : Vec Ideal S1x32 .f32) (x2 : Vec Ideal S32x16 .f32)
    (p : Fin 10000) (q : Fin 16) :
    k1_pay1 x0 x1 x2 (ix2 p q) = ∑ k : Fin 32, leaky (x0 (ix2 p k) + x1 (ix2 (0 : Fin 1) k)) * x2 (ix2 k q) := by
  unfold k1_pay1
  refine (Ideal.matmul_constant_zero_apply dot_S10000x32_S32x16_S10000x16_1_0_0_1_n_n none _ _ (ix2 p q)).trans ?_
  rw [← Equiv.sum_comp (contrEquiv1 dot_S10000x32_S32x16_S10000x16_1_0_0_1_n_n 32 rfl rfl).symm]
  refine Finset.sum_congr rfl fun k _ => ?_
  have ck := contrEquiv1_symm_val dot_S10000x32_S32x16_S10000x16_1_0_0_1_n_n 32 rfl rfl k
  have hl : dot_S10000x32_S32x16_S10000x16_1_0_0_1_n_n.lhsIdx (ix2 p q)
      ((contrEquiv1 dot_S10000x32_S32x16_S10000x16_1_0_0_1_n_n 32 rfl rfl).symm k) = ix2 p k := by
    funext ax; apply Fin.ext
    match ax with
    | ⟨0, _⟩ => simp [DotDims.lhsIdx, dot_S10000x32_S32x16_S10000x16_1_0_0_1_n_n]; rfl
    | ⟨1, _⟩ => simp [DotDims.lhsIdx, dot_S10000x32_S32x16_S10000x16_1_0_0_1_n_n]; exact ck
  have hr : dot_S10000x32_S32x16_S10000x16_1_0_0_1_n_n.rhsIdx (ix2 p q)
      ((contrEquiv1 dot_S10000x32_S32x16_S10000x16_1_0_0_1_n_n 32 rfl rfl).symm k) = ix2 k q := by
    funext ax; apply Fin.ext
    match ax with
    | ⟨0, _⟩ => simp [DotDims.rhsIdx, dot_S10000x32_S32x16_S10000x16_1_0_0_1_n_n]; exact ck
    | ⟨1, _⟩ => simp [DotDims.rhsIdx, dot_S10000x32_S32x16_S10000x16_1_0_0_1_n_n]; rfl
  rw [hl, hr]
  have hb : broadcastTo S10000x32 (shapeCast S1x32 x1 shapeCasts_S1x32_S1x32) broadcasts_S1x32_S10000x32 (ix2 p k)
      = x1 (ix2 (0 : Fin 1) k) := by
    rw [shapeCast_self]
    exact broadcastTo_apply x1 _ (ix2 p k) (ix2 (0 : Fin 1) k) (by
      intro a
      match a with
      | ⟨0, _⟩ => rfl
      | ⟨1, _⟩ => rfl)
  show leaky (shapeCast S10000x32 x0 shapeCasts_S10000x32_S10000x32 (ix2 p k) + broadcastTo S10000x32 (shapeCast S1x32 x1 shapeCasts_S1x32_S1x32) broadcasts_S1x32_S10000x32 (ix2 p k)) * x2 (ix2 k q) = _
  rw [hb, shapeCast_self]

/-- The second transform of the network at one entry: the row of the aggregated array plus the bias row, rectified,
    against the column of the weights. -/
theorem transform2_apply (a : FVec Ideal S100000x32 .f32) (r : FVec Ideal S1x32 .f32) (W : FVec Ideal S32x16 .f32)
    (i : Fin 100000) (q : Fin 16) :
    Cert.Stages.transform2 a r W (ix2 i q) = ∑ k : Fin 32, leaky (a (ix2 i k) + r (ix2 (0 : Fin 1) k)) * W (ix2 k q) := by
  unfold Cert.Stages.transform2
  show FloatOps.dotGeneral Cert.ReferenceIdeal.dot_S100000x32_S32x16_S100000x16_1_0_0_1_n_n none _ _ W (ix2 i q) = _
  rw [Ideal.dotGeneral_apply,
    ← Equiv.sum_comp (contrEquiv1 Cert.ReferenceIdeal.dot_S100000x32_S32x16_S100000x16_1_0_0_1_n_n 32 rfl rfl).symm]
  refine Finset.sum_congr rfl fun k _ => ?_
  have ck := contrEquiv1_symm_val Cert.ReferenceIdeal.dot_S100000x32_S32x16_S100000x16_1_0_0_1_n_n 32 rfl rfl k
  have hl : Cert.ReferenceIdeal.dot_S100000x32_S32x16_S100000x16_1_0_0_1_n_n.lhsIdx (ix2 i q)
      ((contrEquiv1 Cert.ReferenceIdeal.dot_S100000x32_S32x16_S100000x16_1_0_0_1_n_n 32 rfl rfl).symm k) = ix2 i k := by
    funext ax; apply Fin.ext
    match ax with
    | ⟨0, _⟩ => simp [DotDims.lhsIdx, Cert.ReferenceIdeal.dot_S100000x32_S32x16_S100000x16_1_0_0_1_n_n]; rfl
    | ⟨1, _⟩ => simp [DotDims.lhsIdx, Cert.ReferenceIdeal.dot_S100000x32_S32x16_S100000x16_1_0_0_1_n_n]; exact ck
  have hr : Cert.ReferenceIdeal.dot_S100000x32_S32x16_S100000x16_1_0_0_1_n_n.rhsIdx (ix2 i q)
      ((contrEquiv1 Cert.ReferenceIdeal.dot_S100000x32_S32x16_S100000x16_1_0_0_1_n_n 32 rfl rfl).symm k) = ix2 k q := by
    funext ax; apply Fin.ext
    match ax with
    | ⟨0, _⟩ => simp [DotDims.rhsIdx, Cert.ReferenceIdeal.dot_S100000x32_S32x16_S100000x16_1_0_0_1_n_n]; exact ck
    | ⟨1, _⟩ => simp [DotDims.rhsIdx, Cert.ReferenceIdeal.dot_S100000x32_S32x16_S100000x16_1_0_0_1_n_n]; rfl
  rw [hl, hr]
  have hb : broadcastInDim Cert.ReferenceIdeal.S100000x32 ![0, 1] Cert.ReferenceIdeal.Facts₀.bcast_S1x32_S100000x32_0_1 r (ix2 i k)
      = r (ix2 (0 : Fin 1) k) :=
    broadcastInDim_apply _ _ r (ix2 i k) (ix2 (0 : Fin 1) k) (by
      intro ax
      match ax with
      | ⟨0, _⟩ => rfl
      | ⟨1, _⟩ => rfl)
  unfold Cert.Stages.leaky32
  show leaky (a (ix2 i k) + broadcastInDim Cert.ReferenceIdeal.S100000x32 ![0, 1] Cert.ReferenceIdeal.Facts₀.bcast_S1x32_S100000x32_0_1 r (ix2 i k)) * W (ix2 k q) = _
  rw [hb]

/-- The zero offsets of a whole-buffer access, however they are spelt. -/
theorem hz : (![0, 0] : Fin 2 → Nat) = fun _ => 0 := funext fun a => by fin_cases a <;> rfl

/-- The windows' index maps, decided over the grid: the row tiles (the aggregated array's window and the output's)
    sit at block row `t`, block column 0; the bias row and the weights are whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, k)` of the row tile at point `t` is entry `(10000 t + p, k)` of the array. -/
theorem read_tile0 (A : FVec Ideal S100000x32 .f32) (t : Fin cfg1.N) (y : S10000x32.Idx) (i : S100000x32.Idx)
    (h0 : (i 0).val = 10000 * t.val + (y 0).val) (h1 : (i 1).val = (y 1).val) :
    ((cfg1.win 0).blk t).view.read (Elt Ideal) A y = A i := by
  obtain ⟨e0, e1, -⟩ := idx_facts t
  rw [View.read_apply]
  show A _ = A i
  refine congrArg A (funext fun a => Fin.ext ?_)
  match a with
  | ⟨0, _⟩ => show win1_0.index t (0 : Fin 2) * 10000 + 1 * (y 0).val = (i 0).val; rw [e0, h0]; omega
  | ⟨1, _⟩ => show win1_0.index t (1 : Fin 2) * 32 + 1 * (y 1).val = (i 1).val; rw [e1, h1]; omega

/-- The bias row's window is the whole row at every point. -/
theorem read_whole1 (R : FVec Ideal S1x32 .f32) (t : Fin cfg1.N) :
    ((cfg1.win 1).blk t).view.read (Elt Ideal) R = R := by
  obtain ⟨-, -, e0, e1, -⟩ := idx_facts t
  funext y
  rw [View.read_apply]
  show R _ = R y
  refine congrArg R (funext fun a => Fin.ext ?_)
  match a with
  | ⟨0, _⟩ => show win1_1.index t (0 : Fin 2) * 1 + 1 * (y 0).val = (y 0).val; rw [e0]; omega
  | ⟨1, _⟩ => show win1_1.index t (1 : Fin 2) * 32 + 1 * (y 1).val = (y 1).val; rw [e1]; omega

/-- The weights' window is the whole matrix at every point. -/
theorem read_whole2 (W : FVec Ideal S32x16 .f32) (t : Fin cfg1.N) :
    ((cfg1.win 2).blk t).view.read (Elt Ideal) W = W := by
  obtain ⟨-, -, -, -, e0, e1, -⟩ := idx_facts t
  funext y
  rw [View.read_apply]
  show W _ = W y
  refine congrArg W (funext fun a => Fin.ext ?_)
  match a with
  | ⟨0, _⟩ => show win1_2.index t (0 : Fin 2) * 32 + 1 * (y 0).val = (y 0).val; rw [e0]; omega
  | ⟨1, _⟩ => show win1_2.index t (1 : Fin 2) * 16 + 1 * (y 1).val = (y 1).val; rw [e1]; omega

/-- What point `t` writes back of a tile `X` is block `t` of an array `G` as soon as `X` at `(p, q)` is `G` at
    `(10000 t + p, q)`. -/
theorem writeback_eq (X : Vec Ideal S10000x16 .f32) (G : FVec Ideal S100000x16 .f32) (t : Fin cfg1.N)
    (h : ∀ (j : S10000x16.Idx) (i : S100000x16.Idx), (i 0).val = 10000 * t.val + (j 0).val → (i 1).val = (j 1).val → X j = G i) :
    (cfg1.win 3).cut (grid1.coords t) X = ((cfg1.win 3).blk t).view.read (Elt Ideal) G := by
  obtain ⟨-, -, -, -, -, -, e0, e1⟩ := idx_facts t
  funext j
  rw [View.read_apply]
  show X j = G _
  refine h j _ ?_ ?_
  · show win1_3.index t (0 : Fin 2) * 10000 + 1 * (j 0).val = 10000 * t.val + (j 0).val; rw [e0]; omega
  · show win1_3.index t (1 : Fin 2) * 16 + 1 * (j 1).val = (j 1).val; rw [e1]; omega

/-- A tile whose rows are rows `n … n + 9999` of the array: the body's arithmetic at `(p, q)` is the second transform
    of the whole arrays at `(n + p, q)`. -/
theorem tile_eq (a : FVec Ideal S100000x32 .f32) (r : FVec Ideal S1x32 .f32) (W : FVec Ideal S32x16 .f32)
    (x0 : Vec Ideal S10000x32 .f32) (x1 : Vec Ideal S1x32 .f32) (x2 : Vec Ideal S32x16 .f32) (n : Nat)
    (h0 : ∀ (p : Fin 10000) (k : Fin 32) (i : Fin 100000), i.val = n + p.val → x0 (ix2 p k) = a (ix2 i k))
    (h1 : x1 = r) (h2 : x2 = W)
    (j : S10000x16.Idx) (i : S100000x16.Idx) (hi0 : (i 0).val = n + (j 0).val) (hi1 : (i 1).val = (j 1).val) :
    k1_pay1 x0 x1 x2 j = Cert.Stages.transform2 a r W i := by
  obtain ⟨p, q, rfl⟩ : ∃ (p : Fin 10000) (q : Fin 16), j = ix2 p q := ⟨j 0, j 1, eq_ix2 j⟩
  obtain ⟨i0, i1, rfl⟩ : ∃ (i0 : Fin 100000) (i1 : Fin 16), i = ix2 i0 i1 := ⟨i 0, i 1, eq_ix2 i⟩
  obtain rfl : i1 = q := Fin.ext hi1
  rw [pay_apply, transform2_apply]
  refine Finset.sum_congr rfl fun k _ => ?_
  rw [h0 p k i0 hi0, h1, h2]

/-- WHAT POINT `t` WRITES BACK is block `t` of the second transform of the arrays the region was entered with. -/
theorem flushed_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal)
      (Cert.Stages.transform2 (V c main_v46) (V c main_v47) (V c main_arg5)) := by
  show (cfg1.win 3).cut (grid1.coords t) ((dat1 V c).after 3 t) = _
  rw [after1_3]
  unfold out1_3
  rw [View.canon_unit_zero hz]
  simp only [View.ld_unit_zero (S := S10000x32) hz, View.ld_unit_zero (S := S1x32) hz, View.ld_unit_zero (S := S32x16) hz]
  refine writeback_eq (k1_pay1 (iblk1 V c 0 t) (iblk1 V c 1 t) (iblk1 V c 2 t))
    (Cert.Stages.transform2 (V c main_v46) (V c main_v47) (V c main_arg5)) t ?_
  intro j i h0 h1
  refine tile_eq (V c main_v46) (V c main_v47) (V c main_arg5) (iblk1 V c 0 t) (iblk1 V c 1 t) (iblk1 V c 2 t)
    (10000 * t.val) ?_ ?_ ?_ j i h0 h1
  · intro p k i hi
    exact read_tile0 (V c main_v46) t (ix2 p k) (ix2 i k) hi rfl
  · exact read_whole1 (V c main_v47) t
  · exact read_whole2 (V c main_arg5) t

/-- An index of the output array is in point `t`'s block iff each coordinate is in the block's range on its axis. -/
theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v48).slice (win1_3.rect t)).set ↔ _
  rw [View.set_slice_whole, Rect.mem_set_unit]
  exact Iff.rfl

/-- Every row of the output array is in some point's block: row `r` in the block of point `r / 10000`. -/
theorem cover (i : S100000x16.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 16 := (i 1).isLt
  have ht : (i 0).val / 10000 < cfg1.N := by rw [hN]; omega
  obtain ⟨-, -, -, -, -, -, e0, e1⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_3.index ⟨(i 0).val / 10000, ht⟩ (1 : Fin 2) * 16 ≤ (i 1).val
      ∧ (i 1).val < win1_3.index ⟨(i 0).val / 10000, ht⟩ (1 : Fin 2) * 16 + 16
    rw [e1]
    omega

/-- THE VALUE OF REGION 1: after the ten grid points the output array is the second transform of the arrays the
    region was entered with. -/
theorem value (V : (c : Dev nD) → (b : Ref sig .tc) → Buf (Elt Ideal) ((c : Thread nD τ).loc b)) (c : Dev nD) :
    (Gen.dat1 (F := Ideal) V c).arrAt 3 cfg1.N = Cert.Stages.transform2 (V c main_v46) (V c main_v47) (V c main_arg5) :=
  (dat1 (F := Ideal) V c).arrAt_eq_of_cover 3 (Cert.Stages.transform2 (V c main_v46) (V c main_v47) (V c main_arg5))
    (fun t _ => flushed_eq V c t) cover

end Cert.KernelIdeal.Region1
end
-- ==== Proof.Region2.lean ====
/-
  THE VALUE OF REGION 2 at the extended reals: the last dense transform `leaky (a + r) · W + q`.

  The region runs ten grid points. Point t reads rows 10000·t … 10000·t + 9999 of the [100000, 16] input (a row
  tile) and the whole of the [1, 16] bias row, the [16, 1] weight column and the [1, 1] bias; it adds the bias row to
  every row of the tile, applies the leaky rectifier entry by entry (x where x ≥ 0, the literal slope times x
  elsewhere), multiplies by the weight column into a zero accumulator, adds the [1, 1] bias to every row and writes
  the [10000, 1] result back as rows 10000·t … 10000·t + 9999 of the output. At the extended reals a format change is
  the identity, a broadcast row reads the row's entry (0, column) wherever it is read, and a product into the zero
  accumulator is the finite sum over the contracted coordinate; so entry (p, 0) of point t's result is entry
  (10000·t + p, 0) of the whole-array transform, the ten blocks cover the output, and the output array ends holding it.
-/
import proofs.«158536_j61701500174370_1_alg».proof.Proof.Gen.KernelIdeal.Frame
import proofs.«158536_j61701500174370_1_alg».proof.Proof.Gen.ReferenceIdeal
import proofs.«158536_j61701500174370_1_alg».proof.Proof.Stages
import proofs.«158536_j61701500174370_1_alg».proof.Proof.LibTileMatmul
import Idealize.ShloMosaic.Lib.Pipeline.Value
import Idealize.ShloMosaic.Lib.ValueIdx

noncomputable section

namespace Cert.KernelIdeal.Region2

open Idealize.ShloMosaic Idealize.ShloMosaic.TcCoe Idealize.SL.Sem Cert.KernelIdeal Cert.KernelIdeal.Gen
open Idealize.ShloMosaic.ValueIdx
open Idealize.ShloMosaic.Pipeline (Dat)

/-- The zero offsets of a whole-buffer access, as the constant function. -/
theorem hz : (![0, 0] : Fin 2 → Nat) = fun _ => 0 := funext fun a => by fin_cases a <;> rfl

/-- The block indices of the five windows, decided over the grid: the two row-tile windows sit at block (t, 0), the
    three whole-array windows at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-! ## The body's arithmetic at an entry -/

/-- The leaky rectifier on one extended real: u where u ≥ 0, the literal slope times u elsewhere. -/
def leak (u : Ideal .f32) : Ideal .f32 :=
  Scalar.select (FloatOps.cmpf .oge u (Scalar.ofBits (F := Ideal) .f32 0x00000000#32)) u
    (FloatOps.mulf (Scalar.ofBits (F := Ideal) .f32 0x3C23D70A#32) u)

/-- A [1, n] row broadcast over m rows reads, at (p, c), the row's entry (0, c). -/
theorem broadcastTo_row {m n : Nat} (R : (⟨2, ![1, n]⟩ : Shape).Idx → EReal)
    (h : (⟨2, ![1, n]⟩ : Shape).Broadcasts ⟨2, ![m, n]⟩) (hn : n ≠ 1) (p : Fin m) (c : Fin n) :
    broadcastTo ⟨2, ![m, n]⟩ R h (ix2 p c) = R (ix2 (0 : Fin 1) c) :=
  broadcastTo_apply R h _ _ fun a => by
    match a with
    | ⟨0, _⟩ => rfl
    | ⟨1, _⟩ => show c.val = if n = 1 then 0 else c.val; rw [if_neg hn]

/-- The same through the host's broadcast along both axes. -/
theorem broadcastInDim_row {m n : Nat} (R : (⟨2, ![1, n]⟩ : Shape).Idx → EReal)
    (h : (⟨2, ![1, n]⟩ : Shape).BroadcastsInDim ⟨2, ![m, n]⟩ ![0, 1]) (hn : n ≠ 1) (i : Fin m) (c : Fin n) :
    broadcastInDim ⟨2, ![m, n]⟩ ![0, 1] h R (ix2 i c) = R (ix2 (0 : Fin 1) c) :=
  broadcastInDim_apply _ h R _ _ fun a => by
    match a with
    | ⟨0, _⟩ => rfl
    | ⟨1, _⟩ => show c.val = if n = 1 then 0 else c.val; rw [if_neg hn]

/-- A [1, 1] array broadcast over m rows reads its one entry everywhere. -/
theorem broadcastTo_one {m : Nat} (Q : (⟨2, ![1, 1]⟩ : Shape).Idx → EReal)
    (h : (⟨2, ![1, 1]⟩ : Shape).Broadcasts ⟨2, ![m, 1]⟩) (p : Fin m) (q : Fin 1) :
    broadcastTo ⟨2, ![m, 1]⟩ Q h (ix2 p q) = Q (ix2 (0 : Fin 1) (0 : Fin 1)) :=
  broadcastTo_apply Q h _ _ fun a => by
    match a with
    | ⟨0, _⟩ => rfl
    | ⟨1, _⟩ => rfl

/-- The same through the host's broadcast along both axes. -/
theorem broadcastInDim_one {m : Nat} (Q : (⟨2, ![1, 1]⟩ : Shape).Idx → EReal)
    (h : (⟨2, ![1, 1]⟩ : Shape).BroadcastsInDim ⟨2, ![m, 1]⟩ ![0, 1]) (i : Fin m) (q : Fin 1) :
    broadcastInDim ⟨2, ![m, 1]⟩ ![0, 1] h Q (ix2 i q) = Q (ix2 (0 : Fin 1) (0 : Fin 1)) :=
  broadcastInDim_apply _ h Q _ _ fun a => by
    match a with
    | ⟨0, _⟩ => rfl
    | ⟨1, _⟩ => rfl

/-- The body's arithmetic at an entry: from a tile whose row p is row i of A, the result at (p, q) is the entry (i, q)
    of the whole-array transform. -/
theorem pay_apply (A : Cert.Stages.FV Cert.ReferenceIdeal.S100000x16) (R : Cert.Stages.FV Cert.ReferenceIdeal.S1x16)
    (W : Cert.Stages.FV Cert.ReferenceIdeal.S16x1) (Q : Cert.Stages.FV Cert.ReferenceIdeal.S1x1)
    (x0 : Vec Ideal S10000x16 .f32) (p : Fin 10000) (q : Fin 1) (i : Fin 100000)
    (h0 : ∀ k : Fin 16, x0 (ix2 p k) = A (ix2 i k)) :
    k2_pay1 (F := Ideal) x0 R W Q (ix2 p q) = Cert.Stages.transform3 A R W Q (ix2 i q) := by
  unfold k2_pay1 Cert.Stages.transform3
  simp only [shapeCast_self]
  rw [addf_apply, addf_apply, broadcastTo_one, broadcastInDim_one]
  congr 1
  refine TileMatmul.matmul_tile_eq_dotGeneral _ _ none none _ _ _ W p q i (fun c => ?_) (fun c => rfl)
  show leak (x0 (ix2 p c) + broadcastTo S10000x16 R _ (ix2 p c))
    = leak (A (ix2 i c) + broadcastInDim Cert.ReferenceIdeal.S100000x16 ![0, 1] _ R (ix2 i c))
  rw [broadcastTo_row R _ (by decide), broadcastInDim_row R _ (by decide), h0]

/-! ## From blocks to the array -/

/-- Window 0's block at point t is rows 10000·t … 10000·t + 9999 of the array. -/
theorem iblk_rows (V : (c : Dev nD) → (b : Ref sig .tc) → Buf (Elt Ideal) ((c : Thread nD τ).loc b)) (c : Dev nD)
    (t : Fin cfg2.N) (p : Fin 10000) (k : Fin 16) (i : Fin 100000) (hi : i.val = 10000 * t.val + p.val) :
    (iblk2 (F := Ideal) V c 0 t : Vec Ideal S10000x16 .f32) (ix2 p k) = (V c main_v61 : S100000x16.Idx → EReal) (ix2 i k) := by
  obtain ⟨e0, e1, -⟩ := idx_facts t
  unfold iblk2
  rw [View.read_apply]
  show (V c main_v61 : S100000x16.Idx → EReal) _ = (V c main_v61 : S100000x16.Idx → EReal) _
  congr 1
  funext a
  apply Fin.ext
  match a with
  | ⟨0, _⟩ => show win2_0.index t (0 : Fin 2) * 10000 + 1 * p.val = i.val; rw [e0, hi]; omega
  | ⟨1, _⟩ => show win2_0.index t (1 : Fin 2) * 16 + 1 * k.val = k.val; rw [e1]; omega

/-- Window 1's block at every point is the whole bias row. -/
theorem iblk_row (V : (c : Dev nD) → (b : Ref sig .tc) → Buf (Elt Ideal) ((c : Thread nD τ).loc b)) (c : Dev nD)
    (t : Fin cfg2.N) :
    (iblk2 (F := Ideal) V c 1 t : Vec Ideal S1x16 .f32) = (V c main_v62 : S1x16.Idx → EReal) := by
  obtain ⟨-, -, e2, e3, -⟩ := idx_facts t
  funext y
  unfold iblk2
  rw [View.read_apply]
  show (V c main_v62 : S1x16.Idx → EReal) _ = (V c main_v62 : S1x16.Idx → EReal) _
  congr 1
  funext a
  apply Fin.ext
  match a with
  | ⟨0, _⟩ => show win2_1.index t (0 : Fin 2) * 1 + 1 * (y 0).val = (y 0).val; rw [e2]; omega
  | ⟨1, _⟩ => show win2_1.index t (1 : Fin 2) * 16 + 1 * (y 1).val = (y 1).val; rw [e3]; omega

/-- Window 2's block at every point is the whole weight column. -/
theorem iblk_weights (V : (c : Dev nD) → (b : Ref sig .tc) → Buf (Elt Ideal) ((c : Thread nD τ).loc b)) (c : Dev nD)
    (t : Fin cfg2.N) :
    (iblk2 (F := Ideal) V c 2 t : Vec Ideal S16x1 .f32) = (V c main_arg7 : S16x1.Idx → EReal) := by
  obtain ⟨-, -, -, -, e4, e5, -⟩ := idx_facts t
  funext y
  unfold iblk2
  rw [View.read_apply]
  show (V c main_arg7 : S16x1.Idx → EReal) _ = (V c main_arg7 : S16x1.Idx → EReal) _
  congr 1
  funext a
  apply Fin.ext
  match a with
  | ⟨0, _⟩ => show win2_2.index t (0 : Fin 2) * 16 + 1 * (y 0).val = (y 0).val; rw [e4]; omega
  | ⟨1, _⟩ => show win2_2.index t (1 : Fin 2) * 1 + 1 * (y 1).val = (y 1).val; rw [e5]; omega

/-- Window 3's block at every point is the whole [1, 1] bias. -/
theorem iblk_bias (V : (c : Dev nD) → (b : Ref sig .tc) → Buf (Elt Ideal) ((c : Thread nD τ).loc b)) (c : Dev nD)
    (t : Fin cfg2.N) :
    (iblk2 (F := Ideal) V c 3 t : Vec Ideal S1x1 .f32) = (V c main_v63 : S1x1.Idx → EReal) := by
  obtain ⟨-, -, -, -, -, -, e6, e7, -⟩ := idx_facts t
  funext y
  unfold iblk2
  rw [View.read_apply]
  show (V c main_v63 : S1x1.Idx → EReal) _ = (V c main_v63 : S1x1.Idx → EReal) _
  congr 1
  funext a
  apply Fin.ext
  match a with
  | ⟨0, _⟩ => show win2_3.index t (0 : Fin 2) * 1 + 1 * (y 0).val = (y 0).val; rw [e6]; omega
  | ⟨1, _⟩ => show win2_3.index t (1 : Fin 2) * 1 + 1 * (y 1).val = (y 1).val; rw [e7]; omega

/-- A [10000, 1] tile whose row p is row 10000·t + p of G is what the output window's block at point t reads of G. -/
theorem tile_read_eq (t : Fin cfg2.N) (Y : Vec Ideal S10000x1 .f32) (G : S100000x1.Idx → EReal)
    (h : ∀ (p : Fin 10000) (q : Fin 1) (i : Fin 100000), i.val = 10000 * t.val + p.val → Y (ix2 p q) = G (ix2 i q)) :
    (cfg2.win 4).cut (grid2.coords t) Y = ((cfg2.win 4).blk t).view.read (Elt Ideal) G := by
  obtain ⟨-, -, -, -, -, -, -, -, e8, e9⟩ := idx_facts t
  have hN : grid2.N = 10 := N_2
  have ht : t.val < 10 := hN ▸ t.isLt
  funext j
  have hj0 : (j 0).val < 10000 := (j 0).isLt
  have hj1 : (j 1).val < 1 := (j 1).isLt
  rw [View.read_apply]
  show Y ((cfg2.win 4).xinj (grid2.coords t) j) = G (((cfg2.win 4).blk t).view.emb j)
  have hl : (cfg2.win 4).xinj (grid2.coords t) j = ix2 (⟨(j 0).val, hj0⟩ : Fin 10000) (⟨(j 1).val, hj1⟩ : Fin 1) := by
    funext a
    match a with
    | ⟨0, _⟩ => rfl
    | ⟨1, _⟩ => rfl
  have hr : ((cfg2.win 4).blk t).view.emb j
      = ix2 (⟨10000 * t.val + (j 0).val, by omega⟩ : Fin 100000) (⟨(j 1).val, hj1⟩ : Fin 1) := by
    funext a
    apply Fin.ext
    match a with
    | ⟨0, _⟩ => show win2_4.index t (0 : Fin 2) * 10000 + 1 * (j 0).val = 10000 * t.val + (j 0).val; rw [e8]; omega
    | ⟨1, _⟩ => show win2_4.index t (1 : Fin 2) * 1 + 1 * (j 1).val = (j 1).val; rw [e9]; omega
  rw [hl, hr]
  exact h _ _ _ rfl

/-- What the body leaves at point t, from a tile that is the stated rows of A and the whole of the other three arrays,
    is block t of the whole-array transform. -/
theorem out_tile_eq (A : Cert.Stages.FV Cert.ReferenceIdeal.S100000x16) (R : Cert.Stages.FV Cert.ReferenceIdeal.S1x16)
    (W : Cert.Stages.FV Cert.ReferenceIdeal.S16x1) (Q : Cert.Stages.FV Cert.ReferenceIdeal.S1x1)
    (t : Fin cfg2.N) (x0 : Vec Ideal S10000x16 .f32) (x1 : Vec Ideal S1x16 .f32) (x2 : Vec Ideal S16x1 .f32)
    (x3 : Vec Ideal S1x1 .f32)
    (h0 : ∀ (p : Fin 10000) (k : Fin 16) (i : Fin 100000), i.val = 10000 * t.val + p.val → x0 (ix2 p k) = A (ix2 i k))
    (h1 : x1 = R) (h2 : x2 = W) (h3 : x3 = Q) :
    (cfg2.win 4).cut (grid2.coords t) (out2_4 (F := Ideal) x0 x1 x2 x3)
      = ((cfg2.win 4).blk t).view.read (Elt Ideal) (Cert.Stages.transform3 A R W Q) := by
  subst h1 h2 h3
  unfold out2_4
  rw [View.canon_unit_zero hz]
  simp only [View.ld_unit_zero (S := S10000x16) hz, View.ld_unit_zero (S := S1x16) hz,
    View.ld_unit_zero (S := S16x1) hz, View.ld_unit_zero (S := S1x1) hz]
  exact tile_read_eq t _ _ (fun p q i hi => pay_apply A x1 x2 x3 x0 p q i (fun k => h0 p k i hi))

/-- WHAT POINT t WRITES BACK is block t of the last transform of the region's input arrays. -/
theorem flushed_eq (V : (c : Dev nD) → (b : Ref sig .tc) → Buf (Elt Ideal) ((c : Thread nD τ).loc b)) (c : Dev nD)
    (t : Fin cfg2.N) :
    (dat2 (F := Ideal) V c).flushed 4 t
      = ((cfg2.win 4).blk t).view.read (Elt Ideal)
          (Cert.Stages.transform3 (V c main_v61) (V c main_v62) (V c main_arg7) (V c main_v63)) := by
  show (cfg2.win 4).cut (grid2.coords t) ((dat2 V c).after 4 t) = _
  rw [after2_4]
  exact out_tile_eq (V c main_v61) (V c main_v62) (V c main_arg7) (V c main_v63) t _ _ _ _
    (fun p k i hi => iblk_rows V c t p k i hi) (iblk_row V c t) (iblk_weights V c t) (iblk_bias V c t)

/-- An index of the output array is in point t's block iff each coordinate is in the block's range on its axis. -/
theorem mem_blk (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v64).slice (win2_4.rect t)).set ↔ _
  rw [View.set_slice_whole, Rect.mem_set_unit]
  exact Iff.rfl

/-- Row r of the output array is written by point r / 10000. -/
theorem cover (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  have hN : grid2.N = 10 := N_2
  obtain ⟨t, ht⟩ : ∃ t : Fin cfg2.N, t.val = (i 0).val / 10000 :=
    ⟨⟨(i 0).val / 10000, by show _ < grid2.N; rw [hN]; omega⟩, rfl⟩
  obtain ⟨-, -, -, -, -, -, -, -, e8, e9⟩ := idx_facts t
  refine ⟨t, flush2_4 t, ?_⟩
  rw [mem_blk]
  intro a
  match a with
  | ⟨0, _⟩ =>
    show win2_4.index t (0 : Fin 2) * 10000 ≤ (i 0).val ∧ (i 0).val < win2_4.index t (0 : Fin 2) * 10000 + 10000
    rw [e8, ht]; omega
  | ⟨1, _⟩ =>
    show win2_4.index t (1 : Fin 2) * 1 ≤ (i 1).val ∧ (i 1).val < win2_4.index t (1 : Fin 2) * 1 + 1
    rw [e9]; omega

/-- THE VALUE OF REGION 2: after the ten grid points the output window's array is the last transform of the region's
    input arrays. -/
theorem value (V : (c : Dev nD) → (b : Ref sig .tc) → Buf (Elt Ideal) ((c : Thread nD τ).loc b)) (c : Dev nD) :
    (Gen.dat2 (F := Ideal) V c).arrAt 4 cfg2.N
      = Cert.Stages.transform3 (V c main_v61) (V c main_v62) (V c main_arg7) (V c main_v63) :=
  (dat2 (F := Ideal) V c).arrAt_eq_of_cover 4
    (Cert.Stages.transform3 (V c main_v61) (V c main_v62) (V c main_arg7) (V c main_v63))
    (fun t _ => flushed_eq V c t) cover

end Cert.KernelIdeal.Region2

end
-- ==== Proof.KernelHost.lean ====
/-
  The kernel program's host stretches, read back at the extended reals.

  Between its three dense regions the kernel program runs plain host operations: before the first region the edge
  list is split into source and target lists (a self-loop appended per node), the edge weights get a one per self-loop,
  the weighted in-degree is scattered, its inverse square root selected, and every edge's weight is multiplied by the
  inverse square roots at both endpoints; between the regions each transform's result is aggregated over the edges
  (gather the source rows, scale, scatter-add into the target rows) and a bias vector is laid as a one-row table.

  Every statement here is over a VARIABLE valuation `W` of the device's buffers: "after the stretch, buffer b holds
  <stage> of what W held at the stretch's inputs", with <stage> one of the whole-array functions of `Cert.Stages`,
  or "buffer b holds what it held" for the buffers a stretch does not write. The stages are spelt with the reference
  program's gather / scatter records; the kernel program's namesakes are the same records (`rec_…`), so no statement
  here opens a gather, a scatter-add or a power.
-/
import proofs.«158536_j61701500174370_1_alg».proof.Proof.Gen.KernelIdeal.Frame
import proofs.«158536_j61701500174370_1_alg».proof.Proof.Gen.ReferenceIdeal
import proofs.«158536_j61701500174370_1_alg».proof.Proof.Stages
import Idealize.ShloMosaic.Lib.StableHlo.Run
import Idealize.ShloMosaic.Lib.ValueLayout

noncomputable section

namespace Cert.KernelIdeal.HostRead
open Idealize.ShloMosaic Idealize.ShloMosaic.TcCoe Idealize.SL.Sem Cert.KernelIdeal Cert.KernelIdeal.Gen

/-! ## The two programs' index records

Each gather / scatter record is declared once per program with the same field values; the well-formedness field is
a proof. The namesakes are therefore equal, and every read-back below is stated with the reference program's. -/

theorem rec_scatter1 : Cert.KernelIdeal.scatter_S100000_S3300000x1_S3300000_n_0_0_1 = Cert.ReferenceIdeal.scatter_S100000_S3300000x1_S3300000_n_0_0_1 := rfl
theorem rec_gather1 : Cert.KernelIdeal.gather_S100000_S3300000x1_S3300000_n_0_n_n_0_1_1 = Cert.ReferenceIdeal.gather_S100000_S3300000x1_S3300000_n_0_n_n_0_1_1 := rfl
theorem rec_gather32 : Cert.KernelIdeal.gather_S100000x32_S3300000x1_S3300000x32_1_0_n_n_0_1_132 = Cert.ReferenceIdeal.gather_S100000x32_S3300000x1_S3300000x32_1_0_n_n_0_1_132 := rfl
theorem rec_scatter32 : Cert.KernelIdeal.scatter_S100000x32_S3300000x1_S3300000x32_1_0_0_1 = Cert.ReferenceIdeal.scatter_S100000x32_S3300000x1_S3300000x32_1_0_0_1 := rfl
theorem rec_gather16 : Cert.KernelIdeal.gather_S100000x16_S3300000x1_S3300000x16_1_0_n_n_0_1_116 = Cert.ReferenceIdeal.gather_S100000x16_S3300000x1_S3300000x16_1_0_n_n_0_1_116 := rfl
theorem rec_scatter16 : Cert.KernelIdeal.scatter_S100000x16_S3300000x1_S3300000x16_1_0_0_1 = Cert.ReferenceIdeal.scatter_S100000x16_S3300000x1_S3300000x16_1_0_0_1 := rfl

attribute [local irreducible] Host.scatterAdd Host.gather Host.powf

/-! ## A vector laid as one row

A length-`n` vector reshaped to `[1, n]` and the same vector broadcast along axis 1 of `[1, n]` are the same
table: at `(u, k)` both hold the vector's entry `k` (the row-major position of `(u, k)` is `u * n + k` with `u = 0`;
when `n = 1` the broadcast reads entry `0`, which is `k`). -/

theorem row_of_vec {α : Type} {n : Nat} (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hc = broadcastInDim ⟨2, ![1, n]⟩ ![1] hb x := by
  funext j
  obtain ⟨u, i, rfl⟩ : ∃ (u : Fin 1) (i : Fin n), j = ValueIdx.ix2 u i := ⟨j 0, j 1, ValueIdx.eq_ix2 j⟩
  rw [ValueIdx.shapeCast_a_1a_apply x hc u i]
  refine (broadcastInDim_apply ![1] hb x (ValueIdx.ix2 u i) (ValueIdx.ix1 i) (fun a => ?_)).symm
  match a with
  | ⟨0, _⟩ =>
    show i.val = if n = 1 then 0 else i.val
    have := i.isLt
    split
    · omega
    · rfl

/-! ## Before the first transform: the edge list, the weights and the degree (21 operations)

Read at a variable valuation: the endpoint lists with the self-loops appended, the weights with a one per self-loop,
the weighted in-degree, and the two operands of the inverse square root's selection. -/

theorem h0_v5 (W : Valuation τ sig (Elt Ideal)) :
    StableHlo.after hostOps0 W (Proc.devRef .tc main_v5) = Cert.Stages.sources (W (Proc.devRef .tc main_arg1)) := by
  simp only [hostOps0]
  after_results
  rfl

theorem h0_v6 (W : Valuation τ sig (Elt Ideal)) :
    StableHlo.after hostOps0 W (Proc.devRef .tc main_v6) = Cert.Stages.targets (W (Proc.devRef .tc main_arg1)) := by
  simp only [hostOps0]
  after_results
  rfl

theorem h0_v8 (W : Valuation τ sig (Elt Ideal)) :
    StableHlo.after hostOps0 W (Proc.devRef .tc main_v8) = Cert.Stages.weights (W (Proc.devRef .tc main_arg2)) := by
  simp only [hostOps0]
  after_results
  rfl

theorem h0_v11 (W : Valuation τ sig (Elt Ideal)) :
    StableHlo.after hostOps0 W (Proc.devRef .tc main_v11)
      = Cert.Stages.degree (Cert.Stages.targets (W (Proc.devRef .tc main_arg1))) (Cert.Stages.weights (W (Proc.devRef .tc main_arg2))) := by
  simp only [hostOps0]
  after_results
  rw [rec_scatter1]
  rfl

theorem h0_v13 (W : Valuation τ sig (Elt Ideal)) :
    StableHlo.after hostOps0 W (Proc.devRef .tc main_v13)
      = cmpf .ogt (Cert.Stages.degree (Cert.Stages.targets (W (Proc.devRef .tc main_arg1))) (Cert.Stages.weights (W (Proc.devRef .tc main_arg2))))
          (broadcastInDim S100000 ![] Facts₀.bcast_S_S100000 (constant (F := Ideal) S_ .f32 0x00000000#32)) := by
  simp only [hostOps0]
  after_results
  rw [rec_scatter1]
  rfl

theorem h0_v15 (W : Valuation τ sig (Elt Ideal)) :
    StableHlo.after hostOps0 W (Proc.devRef .tc main_v15)
      = Host.powf (Cert.Stages.degree (Cert.Stages.targets (W (Proc.devRef .tc main_arg1))) (Cert.Stages.weights (W (Proc.devRef .tc main_arg2))))
          (broadcastInDim S100000 ![] Facts₀.bcast_S_S100000 (constant (F := Ideal) S_ .f32 0xBF000000#32)) := by
  simp only [hostOps0]
  after_results
  rw [rec_scatter1]
  rfl

theorem h0_cst_3 (W : Valuation τ sig (Elt Ideal)) :
    StableHlo.after hostOps0 W (Proc.devRef .tc main_cst_3) = constant (F := Ideal) S_ .f32 0x00000000#32 := by
  simp only [hostOps0]
  after_results

theorem h0_keep_arg0 (W : Valuation τ sig (Elt Ideal)) :
    StableHlo.after hostOps0 W (Proc.devRef .tc main_arg0) = W (Proc.devRef .tc main_arg0) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h0_keep_arg1 (W : Valuation τ sig (Elt Ideal)) :
    StableHlo.after hostOps0 W (Proc.devRef .tc main_arg1) = W (Proc.devRef .tc main_arg1) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h0_keep_arg2 (W : Valuation τ sig (Elt Ideal)) :
    StableHlo.after hostOps0 W (Proc.devRef .tc main_arg2) = W (Proc.devRef .tc main_arg2) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h0_keep_arg3 (W : Valuation τ sig (Elt Ideal)) :
    StableHlo.after hostOps0 W (Proc.devRef .tc main_arg3) = W (Proc.devRef .tc main_arg3) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h0_keep_arg4 (W : Valuation τ sig (Elt Ideal)) :
    StableHlo.after hostOps0 W (Proc.devRef .tc main_arg4) = W (Proc.devRef .tc main_arg4) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h0_keep_arg5 (W : Valuation τ sig (Elt Ideal)) :
    StableHlo.after hostOps0 W (Proc.devRef .tc main_arg5) = W (Proc.devRef .tc main_arg5) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h0_keep_arg6 (W : Valuation τ sig (Elt Ideal)) :
    StableHlo.after hostOps0 W (Proc.devRef .tc main_arg6) = W (Proc.devRef .tc main_arg6) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h0_keep_arg7 (W : Valuation τ sig (Elt Ideal)) :
    StableHlo.after hostOps0 W (Proc.devRef .tc main_arg7) = W (Proc.devRef .tc main_arg7) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h0_keep_arg8 (W : Valuation τ sig (Elt Ideal)) :
    StableHlo.after hostOps0 W (Proc.devRef .tc main_arg8) = W (Proc.devRef .tc main_arg8) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The selection of the inverse square root (3 operations)

The zero constant is copied, broadcast over the nodes, and chosen wherever the degree is not positive. -/

theorem h1_v16 (W : Valuation τ sig (Elt Ideal)) :
    StableHlo.after hostOps0_1 W (Proc.devRef .tc main_v16)
      = select (W (Proc.devRef .tc main_v13)) (W (Proc.devRef .tc main_v15))
          (broadcastInDim S100000 ![] Facts₀.bcast_S_S100000 (W (Proc.devRef .tc main_cst_3))) := by
  simp only [hostOps0_1]
  after_results_simp
  simp only [StableHlo.TRef.toBuf, StableHlo.TRef.ofBuf, cast_eq, id]

theorem h1_keep_v5 (W : Valuation τ sig (Elt Ideal)) :
    StableHlo.after hostOps0_1 W (Proc.devRef .tc main_v5) = W (Proc.devRef .tc main_v5) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_v6 (W : Valuation τ sig (Elt Ideal)) :
    StableHlo.after hostOps0_1 W (Proc.devRef .tc main_v6) = W (Proc.devRef .tc main_v6) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_v8 (W : Valuation τ sig (Elt Ideal)) :
    StableHlo.after hostOps0_1 W (Proc.devRef .tc main_v8) = W (Proc.devRef .tc main_v8) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg0 (W : Valuation τ sig (Elt Ideal)) :
    StableHlo.after hostOps0_1 W (Proc.devRef .tc main_arg0) = W (Proc.devRef .tc main_arg0) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg1 (W : Valuation τ sig (Elt Ideal)) :
    StableHlo.after hostOps0_1 W (Proc.devRef .tc main_arg1) = W (Proc.devRef .tc main_arg1) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg2 (W : Valuation τ sig (Elt Ideal)) :
    StableHlo.after hostOps0_1 W (Proc.devRef .tc main_arg2) = W (Proc.devRef .tc main_arg2) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg3 (W : Valuation τ sig (Elt Ideal)) :
    StableHlo.after hostOps0_1 W (Proc.devRef .tc main_arg3) = W (Proc.devRef .tc main_arg3) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg4 (W : Valuation τ sig (Elt Ideal)) :
    StableHlo.after hostOps0_1 W (Proc.devRef .tc main_arg4) = W (Proc.devRef .tc main_arg4) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg5 (W : Valuation τ sig (Elt Ideal)) :
    StableHlo.after hostOps0_1 W (Proc.devRef .tc main_arg5) = W (Proc.devRef .tc main_arg5) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg6 (W : Valuation τ sig (Elt Ideal)) :
    StableHlo.after hostOps0_1 W (Proc.devRef .tc main_arg6) = W (Proc.devRef .tc main_arg6) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg7 (W : Valuation τ sig (Elt Ideal)) :
    StableHlo.after hostOps0_1 W (Proc.devRef .tc main_arg7) = W (Proc.devRef .tc main_arg7) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h1_keep_arg8 (W : Valuation τ sig (Elt Ideal)) :
    StableHlo.after hostOps0_1 W (Proc.devRef .tc main_arg8) = W (Proc.devRef .tc main_arg8) :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The normalised weights (20 operations)

Both endpoint lists become gather index columns (a negative node number wrapped by N), the inverse square root of the
degree is gathered at each endpoint, and the weight is multiplied by both. -/

theorem h2_v32 (W : Valuation τ sig (Elt Ideal)) :
    StableHlo.after hostOps0_2 W (Proc.devRef .tc main_v32)
      = (mulf
          (mulf (Host.gather Cert.ReferenceIdeal.gather_S100000_S3300000x1_S3300000_n_0_n_n_0_1_1 (W (Proc.devRef .tc main_v16))
                  (Cert.Stages.gatherIdx (W (Proc.devRef .tc main_v5))))
            (W (Proc.devRef .tc main_v8)))
          (Host.gather Cert.ReferenceIdeal.gather_S100000_S3300000x1_S3300000_n_0_n_n_0_1_1 (W (Proc.devRef .tc main_v16))
            (Cert.Stages.gatherIdx (W (Proc.devRef .tc main_v6)))) : FVec Ideal S3300000 .f32) := by
  simp only [hostOps0_2]
  after_results_simp
  rw [rec_gather1]
  rfl

theorem h2_keep_v5 (W : Valuation τ sig (Elt Ideal)) :
    StableHlo.after hostOps0_2 W (Proc.devRef .tc main_v5) = W (Proc.devRef .tc main_v5) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_v6 (W : Valuation τ sig (Elt Ideal)) :
    StableHlo.after hostOps0_2 W (Proc.devRef .tc main_v6) = W (Proc.devRef .tc main_v6) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg0 (W : Valuation τ sig (Elt Ideal)) :
    StableHlo.after hostOps0_2 W (Proc.devRef .tc main_arg0) = W (Proc.devRef .tc main_arg0) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg1 (W : Valuation τ sig (Elt Ideal)) :
    StableHlo.after hostOps0_2 W (Proc.devRef .tc main_arg1) = W (Proc.devRef .tc main_arg1) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg2 (W : Valuation τ sig (Elt Ideal)) :
    StableHlo.after hostOps0_2 W (Proc.devRef .tc main_arg2) = W (Proc.devRef .tc main_arg2) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg3 (W : Valuation τ sig (Elt Ideal)) :
    StableHlo.after hostOps0_2 W (Proc.devRef .tc main_arg3) = W (Proc.devRef .tc main_arg3) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg4 (W : Valuation τ sig (Elt Ideal)) :
    StableHlo.after hostOps0_2 W (Proc.devRef .tc main_arg4) = W (Proc.devRef .tc main_arg4) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg5 (W : Valuation τ sig (Elt Ideal)) :
    StableHlo.after hostOps0_2 W (Proc.devRef .tc main_arg5) = W (Proc.devRef .tc main_arg5) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg6 (W : Valuation τ sig (Elt Ideal)) :
    StableHlo.after hostOps0_2 W (Proc.devRef .tc main_arg6) = W (Proc.devRef .tc main_arg6) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg7 (W : Valuation τ sig (Elt Ideal)) :
    StableHlo.after hostOps0_2 W (Proc.devRef .tc main_arg7) = W (Proc.devRef .tc main_arg7) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem h2_keep_arg8 (W : Valuation τ sig (Elt Ideal)) :
    StableHlo.after hostOps0_2 W (Proc.devRef .tc main_arg8) = W (Proc.devRef .tc main_arg8) :=
  StableHlo.after_of_forall_not_mem _ _ (List.forall_iff_forall_mem.mp (by
    simp only [hostOps0_2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The three stretches composed -/

/-- After the first two stretches the selection holds `d ^ (-1/2)` where the degree `d` is positive, zero elsewhere. -/
theorem h01_v16 (W : Valuation τ sig (Elt Ideal)) :
    StableHlo.after hostOps0_1 (StableHlo.after hostOps0 W) (Proc.devRef .tc main_v16)
      = Cert.Stages.invSqrt (Cert.Stages.degree (Cert.Stages.targets (W (Proc.devRef .tc main_arg1))) (Cert.Stages.weights (W (Proc.devRef .tc main_arg2)))) := by
  rw [h1_v16, h0_v13, h0_v15, h0_cst_3]
  rfl

theorem pre_sources (W : Valuation τ sig (Elt Ideal)) :
    StableHlo.after hostOps0_2 (StableHlo.after hostOps0_1 (StableHlo.after hostOps0 W)) (Proc.devRef .tc main_v5)
      = Cert.Stages.sources (W (Proc.devRef .tc main_arg1)) := by
  rw [h2_keep_v5, h1_keep_v5, h0_v5]

theorem pre_targets (W : Valuation τ sig (Elt Ideal)) :
    StableHlo.after hostOps0_2 (StableHlo.after hostOps0_1 (StableHlo.after hostOps0 W)) (Proc.devRef .tc main_v6)
      = Cert.Stages.targets (W (Proc.devRef .tc main_arg1)) := by
  rw [h2_keep_v6, h1_keep_v6, h0_v6]

theorem pre_norm (W : Valuation τ sig (Elt Ideal)) :
    StableHlo.after hostOps0_2 (StableHlo.after hostOps0_1 (StableHlo.after hostOps0 W)) (Proc.devRef .tc main_v32)
      = Cert.Stages.normWeights (Cert.Stages.sources (W (Proc.devRef .tc main_arg1))) (Cert.Stages.targets (W (Proc.devRef .tc main_arg1)))
          (Cert.Stages.weights (W (Proc.devRef .tc main_arg2))) := by
  rw [h2_v32, h01_v16, h1_keep_v5, h1_keep_v6, h1_keep_v8, h0_v5, h0_v6, h0_v8]
  rfl

theorem pre_keep_arg0 (W : Valuation τ sig (Elt Ideal)) :
    StableHlo.after hostOps0_2 (StableHlo.after hostOps0_1 (StableHlo.after hostOps0 W)) (Proc.devRef .tc main_arg0)
      = W (Proc.devRef .tc main_arg0) := by
  rw [h2_keep_arg0, h1_keep_arg0, h0_keep_arg0]

theorem pre_keep_arg1 (W : Valuation τ sig (Elt Ideal)) :
    StableHlo.after hostOps0_2 (StableHlo.after hostOps0_1 (StableHlo.after hostOps0 W)) (Proc.devRef .tc main_arg1)
      = W (Proc.devRef .tc main_arg1) := by
  rw [h2_keep_arg1, h1_keep_arg1, h0_keep_arg1]

theorem pre_keep_arg2 (W : Valuation τ sig (Elt Ideal)) :
    StableHlo.after hostOps0_2 (StableHlo.after hostOps0_1 (StableHlo.after hostOps0 W)) (Proc.devRef .tc main_arg2)
      = W (Proc.devRef .tc main_arg2) := by
  rw [h2_keep_arg2, h1_keep_arg2, h0_keep_arg2]

theorem pre_keep_arg3 (W : Valuation τ sig (Elt Ideal)) :
    StableHlo.after hostOps0_2 (StableHlo.after hostOps0_1 (StableHlo.after hostOps0 W)) (Proc.devRef .tc main_arg3)
      = W (Proc.devRef .tc main_arg3) := by
  rw [h2_keep_arg3, h1_keep_arg3, h0_keep_arg3]

theorem pre_keep_arg4 (W : Valuation τ sig (Elt Ideal)) :
    StableHlo.after hostOps0_2 (StableHlo.after hostOps0_1 (StableHlo.after hostOps0 W)) (Proc.devRef .tc main_arg4)
      = W (Proc.devRef .tc main_arg4) := by
  rw [h2_keep_arg4, h1_keep_arg4, h0_keep_arg4]

theorem pre_keep_arg5 (W : Valuation τ sig (Elt Ideal)) :
    StableHlo.after hostOps0_2 (StableHlo.after hostOps0_1 (StableHlo.after hostOps0 W)) (Proc.devRef .tc main_arg5)
      = W (Proc.devRef .tc main_arg5) := by
  rw [h2_keep_arg5, h1_keep_arg5, h0_keep_arg5]

theorem pre_keep_arg6 (W : Valuation τ sig (Elt Ideal)) :
    StableHlo.after hostOps0_2 (StableHlo.after hostOps0_1 (StableHlo.after hostOps0 W)) (Proc.devRef .tc main_arg6)
      = W (Proc.devRef .tc main_arg6) := by
  rw [h2_keep_arg6, h1_keep_arg6, h0_keep_arg6]

theorem pre_keep_arg7 (W : Valuation τ sig (Elt Ideal)) :
    StableHlo.after hostOps0_2 (StableHlo.after hostOps0_1 (StableHlo.after hostOps0 W)) (Proc.devRef .tc main_arg7)
      = W (Proc.devRef .tc main_arg7) := by
  rw [h2_keep_arg7, h1_keep_arg7, h0_keep_arg7]

theorem pre_keep_arg8 (W : Valuation τ sig (Elt Ideal)) :
    StableHlo.after hostOps0_2 (StableHlo.after hostOps0_1 (StableHlo.after hostOps0 W)) (Proc.devRef .tc main_arg8)
      = W (Proc.devRef .tc main_arg8) := by
  rw [h2_keep_arg8, h1_keep_arg8, h0_keep_arg8]

/-! ## Between the first and the second transform

The 17 operations build the width-32 aggregation of the first transform's result and lay the first bias vector as a
row; they write neither the edge endpoints, the normalised weights, nor any later argument. -/

theorem mid1_agg (W : Valuation τ sig (Elt Ideal)) :
    StableHlo.after hostOps1 W (Proc.devRef .tc main_v46)
      = Cert.Stages.aggregate32 (W (Proc.devRef .tc main_v33)) (W (Proc.devRef .tc main_v5)) (W (Proc.devRef .tc main_v6)) (W (Proc.devRef .tc main_v32)) := by
  simp only [hostOps1]
  after_results_simp
  rw [rec_scatter32, rec_gather32]
  rfl

theorem mid1_row (W : Valuation τ sig (Elt Ideal)) :
    StableHlo.after hostOps1 W (Proc.devRef .tc main_v47) = Cert.Stages.row32 (W (Proc.devRef .tc main_arg4)) := by
  simp only [hostOps1]
  after_results_simp
  exact row_of_vec (W (Proc.devRef .tc main_arg4)) _ _

theorem mid1_keep_v5 (W : Valuation τ sig (Elt Ideal)) :
    StableHlo.after hostOps1 W (Proc.devRef .tc main_v5) = W (Proc.devRef .tc main_v5) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem mid1_keep_v6 (W : Valuation τ sig (Elt Ideal)) :
    StableHlo.after hostOps1 W (Proc.devRef .tc main_v6) = W (Proc.devRef .tc main_v6) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem mid1_keep_v32 (W : Valuation τ sig (Elt Ideal)) :
    StableHlo.after hostOps1 W (Proc.devRef .tc main_v32) = W (Proc.devRef .tc main_v32) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem mid1_keep_arg5 (W : Valuation τ sig (Elt Ideal)) :
    StableHlo.after hostOps1 W (Proc.devRef .tc main_arg5) = W (Proc.devRef .tc main_arg5) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem mid1_keep_arg6 (W : Valuation τ sig (Elt Ideal)) :
    StableHlo.after hostOps1 W (Proc.devRef .tc main_arg6) = W (Proc.devRef .tc main_arg6) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem mid1_keep_arg7 (W : Valuation τ sig (Elt Ideal)) :
    StableHlo.after hostOps1 W (Proc.devRef .tc main_arg7) = W (Proc.devRef .tc main_arg7) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem mid1_keep_arg8 (W : Valuation τ sig (Elt Ideal)) :
    StableHlo.after hostOps1 W (Proc.devRef .tc main_arg8) = W (Proc.devRef .tc main_arg8) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## Between the second and the third transform

The 18 operations build the width-16 aggregation of the second transform's result and lay the second bias vector and
the final bias as rows. -/

theorem mid2_agg (W : Valuation τ sig (Elt Ideal)) :
    StableHlo.after hostOps2 W (Proc.devRef .tc main_v61)
      = Cert.Stages.aggregate16 (W (Proc.devRef .tc main_v48)) (W (Proc.devRef .tc main_v5)) (W (Proc.devRef .tc main_v6)) (W (Proc.devRef .tc main_v32)) := by
  simp only [hostOps2]
  after_results_simp
  rw [rec_scatter16, rec_gather16]
  rfl

theorem mid2_row16 (W : Valuation τ sig (Elt Ideal)) :
    StableHlo.after hostOps2 W (Proc.devRef .tc main_v62) = Cert.Stages.row16 (W (Proc.devRef .tc main_arg6)) := by
  simp only [hostOps2]
  after_results_simp
  exact row_of_vec (W (Proc.devRef .tc main_arg6)) _ _

theorem mid2_row1 (W : Valuation τ sig (Elt Ideal)) :
    StableHlo.after hostOps2 W (Proc.devRef .tc main_v63) = Cert.Stages.row1 (W (Proc.devRef .tc main_arg8)) := by
  simp only [hostOps2]
  after_results_simp
  exact row_of_vec (W (Proc.devRef .tc main_arg8)) _ _

theorem mid2_keep_arg7 (W : Valuation τ sig (Elt Ideal)) :
    StableHlo.after hostOps2 W (Proc.devRef .tc main_arg7) = W (Proc.devRef .tc main_arg7) :=
  StableHlo.after_of_forall_not_mem _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.HostRead
end
-- ==== Proof.RefValue.lean ====
/-
  The reference program's run, read back. @main is two windows of statements run in order; with its three
  calls unfolded at their sites it is ONE straight line of 102 host operations. The line is cut into stretches at
  the boundaries of the network's stages: the endpoint lists and weights with their self-loops; the symmetric edge
  normalisation; the first dense transform with its aggregation over the edges and the first bias row; the second
  dense transform; its aggregation and the second bias row; the third dense transform. Each stretch is read back once,
  from arbitrary buffer contents, against the stage it computes (the stages are named in the shared module of stages,
  spelt with this very program's operations, so each equation is closed by unfolding the name). The whole run is the
  stretches chained: every weakly fair execution terminates with the result buffer at the network of the nine
  arguments' launch contents, and the arguments unchanged.
-/
import proofs.«158536_j61701500174370_1_alg».proof.Proof.Gen.ReferenceIdeal
import proofs.«158536_j61701500174370_1_alg».proof.Proof.Stages
import Idealize.ShloMosaic.Lib.StableHlo.Run

noncomputable section

namespace Cert.ReferenceIdeal.RefValue

open Idealize.ShloMosaic Idealize.ShloMosaic.TcCoe Idealize.SL.Sem Cert.ReferenceIdeal Cert.ReferenceIdeal.Facts₀

/-! ## The operations, stretch by stretch

The float operations are written at the extended reals with their element format spelt out: at this instance a
float of every format is an extended real, so the format cannot be read off the contents' type. -/

/-- The edge list's two endpoint rows and the weights, each extended by the self-loops (%0 … %8). -/
abbrev T1 : List (HloOp τ sig (Elt Ideal)) :=
  (StableHlo.unary main_arg1 main_v0 ((extractStridedSlice S1x3200000 ![0, 0] · slices_S2x3200000_S1x3200000_0_0) : (⟨S2x3200000, .i32⟩ : BufTy).Contents (Elt Ideal) → (⟨S1x3200000, .i32⟩ : BufTy).Contents (Elt Ideal))) ::
  (StableHlo.reshape main_v0 main_v1 rfl shapeCasts_S1x3200000_S3200000) ::
  (StableHlo.unary main_arg1 main_v2 ((extractStridedSlice S1x3200000 ![1, 0] · slices_S2x3200000_S1x3200000_1_0) : (⟨S2x3200000, .i32⟩ : BufTy).Contents (Elt Ideal) → (⟨S1x3200000, .i32⟩ : BufTy).Contents (Elt Ideal))) ::
  (StableHlo.reshape main_v2 main_v3 rfl shapeCasts_S1x3200000_S3200000) ::
  (StableHlo.nullary main_v4 (iotaInDim S100000 32 0)) ::
  (StableHlo.binary main_v1 main_v4 main_v5 ((fun a b => concatenate S3300000 0 [⟨S3200000, a⟩, ⟨S100000, b⟩] concatenates_S3200000_S100000_S3300000_d0) : (⟨S3200000, .i32⟩ : BufTy).Contents (Elt Ideal) → (⟨S100000, .i32⟩ : BufTy).Contents (Elt Ideal) → (⟨S3300000, .i32⟩ : BufTy).Contents (Elt Ideal))) ::
  (StableHlo.binary main_v3 main_v4 main_v6 ((fun a b => concatenate S3300000 0 [⟨S3200000, a⟩, ⟨S100000, b⟩] concatenates_S3200000_S100000_S3300000_d0) : (⟨S3200000, .i32⟩ : BufTy).Contents (Elt Ideal) → (⟨S100000, .i32⟩ : BufTy).Contents (Elt Ideal) → (⟨S3300000, .i32⟩ : BufTy).Contents (Elt Ideal))) ::
  (StableHlo.nullary main_cst (constant (F := Ideal) S_ .f32 0x3F800000#32)) ::
  (StableHlo.unary main_cst main_v7 (broadcastInDim S100000 ![] bcast_S_S100000 : (⟨S_, .f32⟩ : BufTy).Contents (Elt Ideal) → (⟨S100000, .f32⟩ : BufTy).Contents (Elt Ideal))) ::
  (StableHlo.binary main_arg2 main_v7 main_v8 ((fun a b => concatenate S3300000 0 [⟨S3200000, a⟩, ⟨S100000, b⟩] concatenates_S3200000_S100000_S3300000_d0) : (⟨S3200000, .f32⟩ : BufTy).Contents (Elt Ideal) → (⟨S100000, .f32⟩ : BufTy).Contents (Elt Ideal) → (⟨S3300000, .f32⟩ : BufTy).Contents (Elt Ideal))) ::
  []

/-- The weighted in-degree of every node, where it is positive, and its power minus one half (%cst_0 … %cst_3). -/
abbrev T2a : List (HloOp τ sig (Elt Ideal)) :=
  (StableHlo.nullary main_cst_0 (constant (F := Ideal) S_ .f32 0x00000000#32)) ::
  (StableHlo.unary main_cst_0 main_v9 (broadcastInDim S100000 ![] bcast_S_S100000 : (⟨S_, .f32⟩ : BufTy).Contents (Elt Ideal) → (⟨S100000, .f32⟩ : BufTy).Contents (Elt Ideal))) ::
  (StableHlo.unary main_v6 main_v10 (broadcastInDim S3300000x1 ![0] bcast_S3300000_S3300000x1_0 : (⟨S3300000, .i32⟩ : BufTy).Contents (Elt Ideal) → (⟨S3300000x1, .i32⟩ : BufTy).Contents (Elt Ideal))) ::
  (StableHlo.ternary main_v9 main_v10 main_v8 main_v11 ((fun x i u => Host.scatterAdd (F := Ideal) (φ := .f32) scatter_S100000_S3300000x1_S3300000_n_0_0_1 x i u) : (⟨S100000, .f32⟩ : BufTy).Contents (Elt Ideal) → (⟨S3300000x1, .i32⟩ : BufTy).Contents (Elt Ideal) → (⟨S3300000, .f32⟩ : BufTy).Contents (Elt Ideal) → (⟨S100000, .f32⟩ : BufTy).Contents (Elt Ideal))) ::
  (StableHlo.nullary main_cst_1 (constant (F := Ideal) S_ .f32 0x00000000#32)) ::
  (StableHlo.unary main_cst_1 main_v12 (broadcastInDim S100000 ![] bcast_S_S100000 : (⟨S_, .f32⟩ : BufTy).Contents (Elt Ideal) → (⟨S100000, .f32⟩ : BufTy).Contents (Elt Ideal))) ::
  (StableHlo.binary main_v11 main_v12 main_v13 (cmpf (F := Ideal) (φ := .f32) .ogt : (⟨S100000, .f32⟩ : BufTy).Contents (Elt Ideal) → (⟨S100000, .f32⟩ : BufTy).Contents (Elt Ideal) → (⟨S100000, .i1⟩ : BufTy).Contents (Elt Ideal))) ::
  (StableHlo.nullary main_cst_2 (constant (F := Ideal) S_ .f32 0xBF000000#32)) ::
  (StableHlo.unary main_cst_2 main_v14 (broadcastInDim S100000 ![] bcast_S_S100000 : (⟨S_, .f32⟩ : BufTy).Contents (Elt Ideal) → (⟨S100000, .f32⟩ : BufTy).Contents (Elt Ideal))) ::
  (StableHlo.binary main_v11 main_v14 main_v15 (Host.powf (F := Ideal) (φ := .f32) : (⟨S100000, .f32⟩ : BufTy).Contents (Elt Ideal) → (⟨S100000, .f32⟩ : BufTy).Contents (Elt Ideal) → (⟨S100000, .f32⟩ : BufTy).Contents (Elt Ideal))) ::
  (StableHlo.nullary main_cst_3 (constant (F := Ideal) S_ .f32 0x00000000#32)) ::
  []

/-- The selection of the inverse square root: the `where` function's three operations (the zero copied, broadcast, chosen). -/
abbrev T2w : List (HloOp τ sig (Elt Ideal)) :=
  (StableHlo.TRef.unary (StableHlo.TRef.of main_cst_3 : StableHlo.TRef sig ⟨S_, .f32⟩) main_call0.v0 id) ::
  (StableHlo.TRef.unary main_call0.v0 main_call0.v1 (broadcastInDim S100000 ![] bcast_S_S100000)) ::
  (StableHlo.TRef.ternary (StableHlo.TRef.of main_v13 : StableHlo.TRef sig ⟨S100000, .i1⟩) (StableHlo.TRef.of main_v15 : StableHlo.TRef sig ⟨S100000, .f32⟩) main_call0.v1 main_call0.v2 select) ::
  []

/-- The source node's factor gathered along the edges, times the weight (%c … %24). -/
abbrev T2b : List (HloOp τ sig (Elt Ideal)) :=
  (StableHlo.nullary main_c (constantI S_ 32 0#32)) ::
  (StableHlo.unary main_c main_v17 (broadcastInDim S3300000 ![] bcast_S_S3300000 : (⟨S_, .i32⟩ : BufTy).Contents (Elt Ideal) → (⟨S3300000, .i32⟩ : BufTy).Contents (Elt Ideal))) ::
  (StableHlo.binary main_v5 main_v17 main_v18 (cmpi .slt : (⟨S3300000, .i32⟩ : BufTy).Contents (Elt Ideal) → (⟨S3300000, .i32⟩ : BufTy).Contents (Elt Ideal) → (⟨S3300000, .i1⟩ : BufTy).Contents (Elt Ideal))) ::
  (StableHlo.nullary main_c_4 (constantI S_ 32 100000#32)) ::
  (StableHlo.unary main_c_4 main_v19 (broadcastInDim S3300000 ![] bcast_S_S3300000 : (⟨S_, .i32⟩ : BufTy).Contents (Elt Ideal) → (⟨S3300000, .i32⟩ : BufTy).Contents (Elt Ideal))) ::
  (StableHlo.binary main_v5 main_v19 main_v20 (addi : (⟨S3300000, .i32⟩ : BufTy).Contents (Elt Ideal) → (⟨S3300000, .i32⟩ : BufTy).Contents (Elt Ideal) → (⟨S3300000, .i32⟩ : BufTy).Contents (Elt Ideal))) ::
  (StableHlo.ternary main_v18 main_v20 main_v5 main_v21 (select : (⟨S3300000, .i1⟩ : BufTy).Contents (Elt Ideal) → (⟨S3300000, .i32⟩ : BufTy).Contents (Elt Ideal) → (⟨S3300000, .i32⟩ : BufTy).Contents (Elt Ideal) → (⟨S3300000, .i32⟩ : BufTy).Contents (Elt Ideal))) ::
  (StableHlo.unary main_v21 main_v22 (broadcastInDim S3300000x1 ![0] bcast_S3300000_S3300000x1_0 : (⟨S3300000, .i32⟩ : BufTy).Contents (Elt Ideal) → (⟨S3300000x1, .i32⟩ : BufTy).Contents (Elt Ideal))) ::
  (StableHlo.binary main_v16 main_v22 main_v23 ((fun x i => Host.gather gather_S100000_S3300000x1_S3300000_n_0_n_n_0_1_1 x i) : (⟨S100000, .f32⟩ : BufTy).Contents (Elt Ideal) → (⟨S3300000x1, .i32⟩ : BufTy).Contents (Elt Ideal) → (⟨S3300000, .f32⟩ : BufTy).Contents (Elt Ideal))) ::
  (StableHlo.binary main_v23 main_v8 main_v24 (mulf (F := Ideal) (φ := .f32) : (⟨S3300000, .f32⟩ : BufTy).Contents (Elt Ideal) → (⟨S3300000, .f32⟩ : BufTy).Contents (Elt Ideal) → (⟨S3300000, .f32⟩ : BufTy).Contents (Elt Ideal))) ::
  []

/-- The target node's factor gathered along the edges, times that product (%c_5 … %32). -/
abbrev T2c : List (HloOp τ sig (Elt Ideal)) :=
  (StableHlo.nullary main_c_5 (constantI S_ 32 0#32)) ::
  (StableHlo.unary main_c_5 main_v25 (broadcastInDim S3300000 ![] bcast_S_S3300000 : (⟨S_, .i32⟩ : BufTy).Contents (Elt Ideal) → (⟨S3300000, .i32⟩ : BufTy).Contents (Elt Ideal))) ::
  (StableHlo.binary main_v6 main_v25 main_v26 (cmpi .slt : (⟨S3300000, .i32⟩ : BufTy).Contents (Elt Ideal) → (⟨S3300000, .i32⟩ : BufTy).Contents (Elt Ideal) → (⟨S3300000, .i1⟩ : BufTy).Contents (Elt Ideal))) ::
  (StableHlo.nullary main_c_6 (constantI S_ 32 100000#32)) ::
  (StableHlo.unary main_c_6 main_v27 (broadcastInDim S3300000 ![] bcast_S_S3300000 : (⟨S_, .i32⟩ : BufTy).Contents (Elt Ideal) → (⟨S3300000, .i32⟩ : BufTy).Contents (Elt Ideal))) ::
  (StableHlo.binary main_v6 main_v27 main_v28 (addi : (⟨S3300000, .i32⟩ : BufTy).Contents (Elt Ideal) → (⟨S3300000, .i32⟩ : BufTy).Contents (Elt Ideal) → (⟨S3300000, .i32⟩ : BufTy).Contents (Elt Ideal))) ::
  (StableHlo.ternary main_v26 main_v28 main_v6 main_v29 (select : (⟨S3300000, .i1⟩ : BufTy).Contents (Elt Ideal) → (⟨S3300000, .i32⟩ : BufTy).Contents (Elt Ideal) → (⟨S3300000, .i32⟩ : BufTy).Contents (Elt Ideal) → (⟨S3300000, .i32⟩ : BufTy).Contents (Elt Ideal))) ::
  (StableHlo.unary main_v29 main_v30 (broadcastInDim S3300000x1 ![0] bcast_S3300000_S3300000x1_0 : (⟨S3300000, .i32⟩ : BufTy).Contents (Elt Ideal) → (⟨S3300000x1, .i32⟩ : BufTy).Contents (Elt Ideal))) ::
  (StableHlo.binary main_v16 main_v30 main_v31 ((fun x i => Host.gather gather_S100000_S3300000x1_S3300000_n_0_n_n_0_1_1 x i) : (⟨S100000, .f32⟩ : BufTy).Contents (Elt Ideal) → (⟨S3300000x1, .i32⟩ : BufTy).Contents (Elt Ideal) → (⟨S3300000, .f32⟩ : BufTy).Contents (Elt Ideal))) ::
  (StableHlo.binary main_v24 main_v31 main_v32 (mulf (F := Ideal) (φ := .f32) : (⟨S3300000, .f32⟩ : BufTy).Contents (Elt Ideal) → (⟨S3300000, .f32⟩ : BufTy).Contents (Elt Ideal) → (⟨S3300000, .f32⟩ : BufTy).Contents (Elt Ideal))) ::
  []

/-- The degree of every node, its inverse square root where positive, and the normalised weight of every edge (%cst_0 … %32). -/
abbrev T2 : List (HloOp τ sig (Elt Ideal)) := T2a ++ T2w ++ T2b ++ T2c

/-- The first dense transform, its aggregation over the edges, and the first bias laid as a row (%33 … %47). -/
abbrev T3 : List (HloOp τ sig (Elt Ideal)) :=
  (StableHlo.binary main_arg0 main_arg3 main_v33 ((fun l r => Host.dotGeneral (F := Ideal) (φ₁ := .f32) (φ₂ := .f32) dot_S100000x128_S128x32_S100000x32_1_0_0_1_n_n none l r) : (⟨S100000x128, .f32⟩ : BufTy).Contents (Elt Ideal) → (⟨S128x32, .f32⟩ : BufTy).Contents (Elt Ideal) → (⟨S100000x32, .f32⟩ : BufTy).Contents (Elt Ideal))) ::
  (StableHlo.nullary main_c_7 (constantI S_ 32 0#32)) ::
  (StableHlo.unary main_c_7 main_v34 (broadcastInDim S3300000 ![] bcast_S_S3300000 : (⟨S_, .i32⟩ : BufTy).Contents (Elt Ideal) → (⟨S3300000, .i32⟩ : BufTy).Contents (Elt Ideal))) ::
  (StableHlo.binary main_v5 main_v34 main_v35 (cmpi .slt : (⟨S3300000, .i32⟩ : BufTy).Contents (Elt Ideal) → (⟨S3300000, .i32⟩ : BufTy).Contents (Elt Ideal) → (⟨S3300000, .i1⟩ : BufTy).Contents (Elt Ideal))) ::
  (StableHlo.nullary main_c_8 (constantI S_ 32 100000#32)) ::
  (StableHlo.unary main_c_8 main_v36 (broadcastInDim S3300000 ![] bcast_S_S3300000 : (⟨S_, .i32⟩ : BufTy).Contents (Elt Ideal) → (⟨S3300000, .i32⟩ : BufTy).Contents (Elt Ideal))) ::
  (StableHlo.binary main_v5 main_v36 main_v37 (addi : (⟨S3300000, .i32⟩ : BufTy).Contents (Elt Ideal) → (⟨S3300000, .i32⟩ : BufTy).Contents (Elt Ideal) → (⟨S3300000, .i32⟩ : BufTy).Contents (Elt Ideal))) ::
  (StableHlo.ternary main_v35 main_v37 main_v5 main_v38 (select : (⟨S3300000, .i1⟩ : BufTy).Contents (Elt Ideal) → (⟨S3300000, .i32⟩ : BufTy).Contents (Elt Ideal) → (⟨S3300000, .i32⟩ : BufTy).Contents (Elt Ideal) → (⟨S3300000, .i32⟩ : BufTy).Contents (Elt Ideal))) ::
  (StableHlo.unary main_v38 main_v39 (broadcastInDim S3300000x1 ![0] bcast_S3300000_S3300000x1_0 : (⟨S3300000, .i32⟩ : BufTy).Contents (Elt Ideal) → (⟨S3300000x1, .i32⟩ : BufTy).Contents (Elt Ideal))) ::
  (StableHlo.binary main_v33 main_v39 main_v40 ((fun x i => Host.gather gather_S100000x32_S3300000x1_S3300000x32_1_0_n_n_0_1_132 x i) : (⟨S100000x32, .f32⟩ : BufTy).Contents (Elt Ideal) → (⟨S3300000x1, .i32⟩ : BufTy).Contents (Elt Ideal) → (⟨S3300000x32, .f32⟩ : BufTy).Contents (Elt Ideal))) ::
  (StableHlo.unary main_v32 main_v41 (broadcastInDim S3300000x1 ![0] bcast_S3300000_S3300000x1_0 : (⟨S3300000, .f32⟩ : BufTy).Contents (Elt Ideal) → (⟨S3300000x1, .f32⟩ : BufTy).Contents (Elt Ideal))) ::
  (StableHlo.unary main_v41 main_v42 (broadcastInDim S3300000x32 ![0, 1] bcast_S3300000x1_S3300000x32_0_1 : (⟨S3300000x1, .f32⟩ : BufTy).Contents (Elt Ideal) → (⟨S3300000x32, .f32⟩ : BufTy).Contents (Elt Ideal))) ::
  (StableHlo.binary main_v40 main_v42 main_v43 (mulf (F := Ideal) (φ := .f32) : (⟨S3300000x32, .f32⟩ : BufTy).Contents (Elt Ideal) → (⟨S3300000x32, .f32⟩ : BufTy).Contents (Elt Ideal) → (⟨S3300000x32, .f32⟩ : BufTy).Contents (Elt Ideal))) ::
  (StableHlo.nullary main_cst_9 (constant (F := Ideal) S_ .f32 0x00000000#32)) ::
  (StableHlo.unary main_cst_9 main_v44 (broadcastInDim S100000x32 ![] bcast_S_S100000x32 : (⟨S_, .f32⟩ : BufTy).Contents (Elt Ideal) → (⟨S100000x32, .f32⟩ : BufTy).Contents (Elt Ideal))) ::
  (StableHlo.unary main_v6 main_v45 (broadcastInDim S3300000x1 ![0] bcast_S3300000_S3300000x1_0 : (⟨S3300000, .i32⟩ : BufTy).Contents (Elt Ideal) → (⟨S3300000x1, .i32⟩ : BufTy).Contents (Elt Ideal))) ::
  (StableHlo.ternary main_v44 main_v45 main_v43 main_v46 ((fun x i u => Host.scatterAdd (F := Ideal) (φ := .f32) scatter_S100000x32_S3300000x1_S3300000x32_1_0_0_1 x i u) : (⟨S100000x32, .f32⟩ : BufTy).Contents (Elt Ideal) → (⟨S3300000x1, .i32⟩ : BufTy).Contents (Elt Ideal) → (⟨S3300000x32, .f32⟩ : BufTy).Contents (Elt Ideal) → (⟨S100000x32, .f32⟩ : BufTy).Contents (Elt Ideal))) ::
  (StableHlo.unary main_arg4 main_v47 (broadcastInDim S1x32 ![1] bcast_S32_S1x32_1 : (⟨S32, .f32⟩ : BufTy).Contents (Elt Ideal) → (⟨S1x32, .f32⟩ : BufTy).Contents (Elt Ideal))) ::
  []

/-- The bias added, the leaky rectifier, the second dense transform (%48 … %51). -/
abbrev T4 : List (HloOp τ sig (Elt Ideal)) :=
  (StableHlo.unary main_v47 main_v48 (broadcastInDim S100000x32 ![0, 1] bcast_S1x32_S100000x32_0_1 : (⟨S1x32, .f32⟩ : BufTy).Contents (Elt Ideal) → (⟨S100000x32, .f32⟩ : BufTy).Contents (Elt Ideal))) ::
  (StableHlo.binary main_v46 main_v48 main_v49 (addf (F := Ideal) (φ := .f32) : (⟨S100000x32, .f32⟩ : BufTy).Contents (Elt Ideal) → (⟨S100000x32, .f32⟩ : BufTy).Contents (Elt Ideal) → (⟨S100000x32, .f32⟩ : BufTy).Contents (Elt Ideal))) ::
  (StableHlo.TRef.nullary main_call1.cst (constant (F := Ideal) S_ .f32 0x00000000#32)) ::
  (StableHlo.TRef.unary main_call1.cst main_call1.v0 (broadcastInDim S100000x32 ![] bcast_S_S100000x32)) ::
  (StableHlo.TRef.binary (StableHlo.TRef.of main_v49 : StableHlo.TRef sig ⟨S100000x32, .f32⟩) main_call1.v0 main_call1.v1 (cmpf (F := Ideal) (φ := .f32) .oge)) ::
  (StableHlo.TRef.nullary main_call1.cst_0 (constant (F := Ideal) S_ .f32 0x3C23D70A#32)) ::
  (StableHlo.TRef.unary main_call1.cst_0 main_call1.v2 (broadcastInDim S100000x32 ![] bcast_S_S100000x32)) ::
  (StableHlo.TRef.binary main_call1.v2 (StableHlo.TRef.of main_v49 : StableHlo.TRef sig ⟨S100000x32, .f32⟩) main_call1.v3 (mulf (F := Ideal) (φ := .f32))) ::
  (StableHlo.TRef.ternary main_call1.v1 (StableHlo.TRef.of main_v49 : StableHlo.TRef sig ⟨S100000x32, .f32⟩) main_call1.v3 main_call1.call0.v0 select) ::
  (StableHlo.binary main_v50 main_arg5 main_v51 ((fun l r => Host.dotGeneral (F := Ideal) (φ₁ := .f32) (φ₂ := .f32) dot_S100000x32_S32x16_S100000x16_1_0_0_1_n_n none l r) : (⟨S100000x32, .f32⟩ : BufTy).Contents (Elt Ideal) → (⟨S32x16, .f32⟩ : BufTy).Contents (Elt Ideal) → (⟨S100000x16, .f32⟩ : BufTy).Contents (Elt Ideal))) ::
  []

/-- The second aggregation over the edges and the second bias laid as a row (%c_10 … %65). -/
abbrev T5 : List (HloOp τ sig (Elt Ideal)) :=
  (StableHlo.nullary main_c_10 (constantI S_ 32 0#32)) ::
  (StableHlo.unary main_c_10 main_v52 (broadcastInDim S3300000 ![] bcast_S_S3300000 : (⟨S_, .i32⟩ : BufTy).Contents (Elt Ideal) → (⟨S3300000, .i32⟩ : BufTy).Contents (Elt Ideal))) ::
  (StableHlo.binary main_v5 main_v52 main_v53 (cmpi .slt : (⟨S3300000, .i32⟩ : BufTy).Contents (Elt Ideal) → (⟨S3300000, .i32⟩ : BufTy).Contents (Elt Ideal) → (⟨S3300000, .i1⟩ : BufTy).Contents (Elt Ideal))) ::
  (StableHlo.nullary main_c_11 (constantI S_ 32 100000#32)) ::
  (StableHlo.unary main_c_11 main_v54 (broadcastInDim S3300000 ![] bcast_S_S3300000 : (⟨S_, .i32⟩ : BufTy).Contents (Elt Ideal) → (⟨S3300000, .i32⟩ : BufTy).Contents (Elt Ideal))) ::
  (StableHlo.binary main_v5 main_v54 main_v55 (addi : (⟨S3300000, .i32⟩ : BufTy).Contents (Elt Ideal) → (⟨S3300000, .i32⟩ : BufTy).Contents (Elt Ideal) → (⟨S3300000, .i32⟩ : BufTy).Contents (Elt Ideal))) ::
  (StableHlo.ternary main_v53 main_v55 main_v5 main_v56 (select : (⟨S3300000, .i1⟩ : BufTy).Contents (Elt Ideal) → (⟨S3300000, .i32⟩ : BufTy).Contents (Elt Ideal) → (⟨S3300000, .i32⟩ : BufTy).Contents (Elt Ideal) → (⟨S3300000, .i32⟩ : BufTy).Contents (Elt Ideal))) ::
  (StableHlo.unary main_v56 main_v57 (broadcastInDim S3300000x1 ![0] bcast_S3300000_S3300000x1_0 : (⟨S3300000, .i32⟩ : BufTy).Contents (Elt Ideal) → (⟨S3300000x1, .i32⟩ : BufTy).Contents (Elt Ideal))) ::
  (StableHlo.binary main_v51 main_v57 main_v58 ((fun x i => Host.gather gather_S100000x16_S3300000x1_S3300000x16_1_0_n_n_0_1_116 x i) : (⟨S100000x16, .f32⟩ : BufTy).Contents (Elt Ideal) → (⟨S3300000x1, .i32⟩ : BufTy).Contents (Elt Ideal) → (⟨S3300000x16, .f32⟩ : BufTy).Contents (Elt Ideal))) ::
  (StableHlo.unary main_v32 main_v59 (broadcastInDim S3300000x1 ![0] bcast_S3300000_S3300000x1_0 : (⟨S3300000, .f32⟩ : BufTy).Contents (Elt Ideal) → (⟨S3300000x1, .f32⟩ : BufTy).Contents (Elt Ideal))) ::
  (StableHlo.unary main_v59 main_v60 (broadcastInDim S3300000x16 ![0, 1] bcast_S3300000x1_S3300000x16_0_1 : (⟨S3300000x1, .f32⟩ : BufTy).Contents (Elt Ideal) → (⟨S3300000x16, .f32⟩ : BufTy).Contents (Elt Ideal))) ::
  (StableHlo.binary main_v58 main_v60 main_v61 (mulf (F := Ideal) (φ := .f32) : (⟨S3300000x16, .f32⟩ : BufTy).Contents (Elt Ideal) → (⟨S3300000x16, .f32⟩ : BufTy).Contents (Elt Ideal) → (⟨S3300000x16, .f32⟩ : BufTy).Contents (Elt Ideal))) ::
  (StableHlo.nullary main_cst_12 (constant (F := Ideal) S_ .f32 0x00000000#32)) ::
  (StableHlo.unary main_cst_12 main_v62 (broadcastInDim S100000x16 ![] bcast_S_S100000x16 : (⟨S_, .f32⟩ : BufTy).Contents (Elt Ideal) → (⟨S100000x16, .f32⟩ : BufTy).Contents (Elt Ideal))) ::
  (StableHlo.unary main_v6 main_v63 (broadcastInDim S3300000x1 ![0] bcast_S3300000_S3300000x1_0 : (⟨S3300000, .i32⟩ : BufTy).Contents (Elt Ideal) → (⟨S3300000x1, .i32⟩ : BufTy).Contents (Elt Ideal))) ::
  (StableHlo.ternary main_v62 main_v63 main_v61 main_v64 ((fun x i u => Host.scatterAdd (F := Ideal) (φ := .f32) scatter_S100000x16_S3300000x1_S3300000x16_1_0_0_1 x i u) : (⟨S100000x16, .f32⟩ : BufTy).Contents (Elt Ideal) → (⟨S3300000x1, .i32⟩ : BufTy).Contents (Elt Ideal) → (⟨S3300000x16, .f32⟩ : BufTy).Contents (Elt Ideal) → (⟨S100000x16, .f32⟩ : BufTy).Contents (Elt Ideal))) ::
  (StableHlo.unary main_arg6 main_v65 (broadcastInDim S1x16 ![1] bcast_S16_S1x16_1 : (⟨S16, .f32⟩ : BufTy).Contents (Elt Ideal) → (⟨S1x16, .f32⟩ : BufTy).Contents (Elt Ideal))) ::
  []

/-- The bias added, the leaky rectifier, the third dense transform and the last bias (%66 … %72). -/
abbrev T6 : List (HloOp τ sig (Elt Ideal)) :=
  (StableHlo.unary main_v65 main_v66 (broadcastInDim S100000x16 ![0, 1] bcast_S1x16_S100000x16_0_1 : (⟨S1x16, .f32⟩ : BufTy).Contents (Elt Ideal) → (⟨S100000x16, .f32⟩ : BufTy).Contents (Elt Ideal))) ::
  (StableHlo.binary main_v64 main_v66 main_v67 (addf (F := Ideal) (φ := .f32) : (⟨S100000x16, .f32⟩ : BufTy).Contents (Elt Ideal) → (⟨S100000x16, .f32⟩ : BufTy).Contents (Elt Ideal) → (⟨S100000x16, .f32⟩ : BufTy).Contents (Elt Ideal))) ::
  (StableHlo.TRef.nullary main_call2.cst (constant (F := Ideal) S_ .f32 0x00000000#32)) ::
  (StableHlo.TRef.unary main_call2.cst main_call2.v0 (broadcastInDim S100000x16 ![] bcast_S_S100000x16)) ::
  (StableHlo.TRef.binary (StableHlo.TRef.of main_v67 : StableHlo.TRef sig ⟨S100000x16, .f32⟩) main_call2.v0 main_call2.v1 (cmpf (F := Ideal) (φ := .f32) .oge)) ::
  (StableHlo.TRef.nullary main_call2.cst_0 (constant (F := Ideal) S_ .f32 0x3C23D70A#32)) ::
  (StableHlo.TRef.unary main_call2.cst_0 main_call2.v2 (broadcastInDim S100000x16 ![] bcast_S_S100000x16)) ::
  (StableHlo.TRef.binary main_call2.v2 (StableHlo.TRef.of main_v67 : StableHlo.TRef sig ⟨S100000x16, .f32⟩) main_call2.v3 (mulf (F := Ideal) (φ := .f32))) ::
  (StableHlo.TRef.ternary main_call2.v1 (StableHlo.TRef.of main_v67 : StableHlo.TRef sig ⟨S100000x16, .f32⟩) main_call2.v3 main_call2.call0.v0 select) ::
  (StableHlo.binary main_v68 main_arg7 main_v69 ((fun l r => Host.dotGeneral (F := Ideal) (φ₁ := .f32) (φ₂ := .f32) dot_S100000x16_S16x1_S100000x1_1_0_0_1_n_n none l r) : (⟨S100000x16, .f32⟩ : BufTy).Contents (Elt Ideal) → (⟨S16x1, .f32⟩ : BufTy).Contents (Elt Ideal) → (⟨S100000x1, .f32⟩ : BufTy).Contents (Elt Ideal))) ::
  (StableHlo.unary main_arg8 main_v70 (broadcastInDim S1x1 ![1] bcast_S1_S1x1_1 : (⟨S1, .f32⟩ : BufTy).Contents (Elt Ideal) → (⟨S1x1, .f32⟩ : BufTy).Contents (Elt Ideal))) ::
  (StableHlo.unary main_v70 main_v71 (broadcastInDim S100000x1 ![0, 1] bcast_S1x1_S100000x1_0_1 : (⟨S1x1, .f32⟩ : BufTy).Contents (Elt Ideal) → (⟨S100000x1, .f32⟩ : BufTy).Contents (Elt Ideal))) ::
  (StableHlo.binary main_v69 main_v71 main_v72 (addf (F := Ideal) (φ := .f32) : (⟨S100000x1, .f32⟩ : BufTy).Contents (Elt Ideal) → (⟨S100000x1, .f32⟩ : BufTy).Contents (Elt Ideal) → (⟨S100000x1, .f32⟩ : BufTy).Contents (Elt Ideal))) ::
  []

/-! ## @main is that straight line -/

-- the chain of binds is re-associated once per statement: deeper than the default bound
set_option maxRecDepth 8192 in
set_option maxHeartbeats 4000000 in
/-- The first window of @main's statements is the first three stretches run in order: the call of the `where` function
    unfolded at its site and the sequencing re-associated, both sides are one chain of the same steps. -/
theorem part0_eq (c : Dev nD) : main_part0 (F := Ideal) c = StableHlo.seq (T1 ++ T2 ++ T3) := by
  simp only [main_part0, fn_where.body, bind_assoc, pure_bind]
  rfl

set_option maxRecDepth 8192 in
set_option maxHeartbeats 4000000 in
/-- The second window likewise: the two leaky rectifiers, and the select inside each, unfolded at their sites. -/
theorem part1_eq (c : Dev nD) : main_part1 (F := Ideal) c = StableHlo.seq (T4 ++ T5 ++ T6) := by
  simp only [main_part1, fn_leaky_relu.body, fn_where_0.body, fn_leaky_relu_1.body, fn_where_2.body, bind_assoc, pure_bind]
  rfl

/-- @main's operations in order, the calls unfolded at their sites. -/
abbrev ops : List (HloOp τ sig (Elt Ideal)) := (T1 ++ T2 ++ T3) ++ (T4 ++ T5 ++ T6)

/-- @main runs its two windows in order, and two lines run in order are their concatenation run as one. -/
theorem main_eq (c : Dev nD) : main (F := Ideal) c = StableHlo.seq ops := by
  rw [show ops = (T1 ++ T2 ++ T3) ++ (T4 ++ T5 ++ T6) from rfl, StableHlo.seq_append, ← part0_eq c, ← part1_eq c]
  rfl

/-! ## The fold of a stretch, read at a variable valuation

Each stretch of operations is read back ONCE, from arbitrary contents `V`: the buffers it is there to produce hold a
named stage of the network applied to what `V` holds at the buffers it reads, and every buffer it does not write holds
what `V` held. The whole line is then the stretches chained, and no equation ever opens a gather, a scatter-add, a
power or a contraction: both sides spell them identically. -/

/-- The fold of two lines run one after the other is the second's fold over the first's. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- A reference outside a list is none of the list's members. -/
theorem ne_of_not_mem {W : List (Ref sig .tc)} {r y : Ref sig .tc} (h : r ∉ W) (hy : y ∈ W) : r ≠ y :=
  fun e => h (e ▸ hy)

/-- The buffers the stretch `T1` writes. -/
abbrev W1 : List (Ref sig .tc) := [main_v0, main_v1, main_v2, main_v3, main_v4, main_v5, main_v6, main_cst, main_v7, main_v8]
/-- The buffers the stretch `T2a` writes. -/
abbrev W2a : List (Ref sig .tc) := [main_cst_0, main_v9, main_v10, main_v11, main_cst_1, main_v12, main_v13, main_cst_2, main_v14, main_v15, main_cst_3]
/-- The buffers the stretch `T2w` writes. -/
abbrev W2w : List (Ref sig .tc) := [main_call0_v0, main_call0_v1, main_v16]
/-- The buffers the stretch `T2b` writes. -/
abbrev W2b : List (Ref sig .tc) := [main_c, main_v17, main_v18, main_c_4, main_v19, main_v20, main_v21, main_v22, main_v23, main_v24]
/-- The buffers the stretch `T2c` writes. -/
abbrev W2c : List (Ref sig .tc) := [main_c_5, main_v25, main_v26, main_c_6, main_v27, main_v28, main_v29, main_v30, main_v31, main_v32]
/-- The buffers the stretch `T3` writes. -/
abbrev W3 : List (Ref sig .tc) := [main_v33, main_c_7, main_v34, main_v35, main_c_8, main_v36, main_v37, main_v38, main_v39, main_v40, main_v41, main_v42, main_v43, main_cst_9, main_v44, main_v45, main_v46, main_v47]
/-- The buffers the stretch `T4` writes. -/
abbrev W4 : List (Ref sig .tc) := [main_v48, main_v49, main_call1_cst, main_call1_v0, main_call1_v1, main_call1_cst_0, main_call1_v2, main_call1_v3, main_v50, main_v51]
/-- The buffers the stretch `T5` writes. -/
abbrev W5 : List (Ref sig .tc) := [main_c_10, main_v52, main_v53, main_c_11, main_v54, main_v55, main_v56, main_v57, main_v58, main_v59, main_v60, main_v61, main_cst_12, main_v62, main_v63, main_v64, main_v65]
/-- The buffers the stretch `T6` writes. -/
abbrev W6 : List (Ref sig .tc) := [main_v66, main_v67, main_call2_cst, main_call2_v0, main_call2_v1, main_call2_cst_0, main_call2_v2, main_call2_v3, main_v68, main_v69, main_v70, main_v71, main_v72]
/-- The buffers the normalisation writes. -/
abbrev W2 : List (Ref sig .tc) := W2a ++ W2w ++ W2b ++ W2c

/-- A stretch leaves every buffer it does not write as it was: each operation writes its one result buffer. -/
local macro "frame_of" T:ident h:ident : tactic =>
  `(tactic| (refine StableHlo.after_of_forall_not_mem _ _ (List.forall_iff_forall_mem.mp ?_)
             simp only [$T:ident, List.Forall, StableHlo.nullary_writes, StableHlo.unary_writes, StableHlo.binary_writes,
               StableHlo.ternary_writes, StableHlo.reshape_writes, Finset.mem_singleton]
             repeat' apply And.intro
             all_goals exact StableHlo.devRef_ne_of_ne (ne_of_not_mem $h (by decide))))

theorem T1_frame (V : Valuation τ sig (Elt Ideal)) {r : Ref sig .tc} (h : r ∉ W1) :
    StableHlo.after T1 V (Proc.devRef .tc r) = V (Proc.devRef .tc r) := by
  frame_of T1 h
theorem T2a_frame (V : Valuation τ sig (Elt Ideal)) {r : Ref sig .tc} (h : r ∉ W2a) :
    StableHlo.after T2a V (Proc.devRef .tc r) = V (Proc.devRef .tc r) := by
  frame_of T2a h
theorem T2w_frame (V : Valuation τ sig (Elt Ideal)) {r : Ref sig .tc} (h : r ∉ W2w) :
    StableHlo.after T2w V (Proc.devRef .tc r) = V (Proc.devRef .tc r) := by
  frame_of T2w h
theorem T2b_frame (V : Valuation τ sig (Elt Ideal)) {r : Ref sig .tc} (h : r ∉ W2b) :
    StableHlo.after T2b V (Proc.devRef .tc r) = V (Proc.devRef .tc r) := by
  frame_of T2b h
theorem T2c_frame (V : Valuation τ sig (Elt Ideal)) {r : Ref sig .tc} (h : r ∉ W2c) :
    StableHlo.after T2c V (Proc.devRef .tc r) = V (Proc.devRef .tc r) := by
  frame_of T2c h
theorem T3_frame (V : Valuation τ sig (Elt Ideal)) {r : Ref sig .tc} (h : r ∉ W3) :
    StableHlo.after T3 V (Proc.devRef .tc r) = V (Proc.devRef .tc r) := by
  frame_of T3 h
theorem T4_frame (V : Valuation τ sig (Elt Ideal)) {r : Ref sig .tc} (h : r ∉ W4) :
    StableHlo.after T4 V (Proc.devRef .tc r) = V (Proc.devRef .tc r) := by
  frame_of T4 h
theorem T5_frame (V : Valuation τ sig (Elt Ideal)) {r : Ref sig .tc} (h : r ∉ W5) :
    StableHlo.after T5 V (Proc.devRef .tc r) = V (Proc.devRef .tc r) := by
  frame_of T5 h
theorem T6_frame (V : Valuation τ sig (Elt Ideal)) {r : Ref sig .tc} (h : r ∉ W6) :
    StableHlo.after T6 V (Proc.devRef .tc r) = V (Proc.devRef .tc r) := by
  frame_of T6 h
theorem T2_frame (V : Valuation τ sig (Elt Ideal)) {r : Ref sig .tc} (h : r ∉ W2) :
    StableHlo.after T2 V (Proc.devRef .tc r) = V (Proc.devRef .tc r) := by
  have ha : r ∉ W2a := fun hm => h (List.mem_append_left _ (List.mem_append_left _ (List.mem_append_left _ hm)))
  have hw : r ∉ W2w := fun hm => h (List.mem_append_left _ (List.mem_append_left _ (List.mem_append_right _ hm)))
  have hb : r ∉ W2b := fun hm => h (List.mem_append_left _ (List.mem_append_right _ hm))
  have hc : r ∉ W2c := fun hm => h (List.mem_append_right _ hm)
  rw [show T2 = T2a ++ T2w ++ T2b ++ T2c from rfl, after_append, after_append, after_append, T2c_frame _ hc, T2b_frame _ hb, T2w_frame _ hw, T2a_frame _ ha]

attribute [local irreducible] Host.scatterAdd Host.gather Host.powf

/-- The sources of the edges, self-loops included. -/
theorem T1_v5 (V : Valuation τ sig (Elt Ideal)) :
    StableHlo.after T1 V (Proc.devRef .tc main_v5) = Cert.Stages.sources (V (Proc.devRef .tc main_arg1)) := by
  after_results_simp
  rfl
/-- The targets of the edges, self-loops included. -/
theorem T1_v6 (V : Valuation τ sig (Elt Ideal)) :
    StableHlo.after T1 V (Proc.devRef .tc main_v6) = Cert.Stages.targets (V (Proc.devRef .tc main_arg1)) := by
  after_results_simp
  rfl
/-- The weights, a one for each self-loop. -/
theorem T1_v8 (V : Valuation τ sig (Elt Ideal)) :
    StableHlo.after T1 V (Proc.devRef .tc main_v8) = Cert.Stages.weights (V (Proc.devRef .tc main_arg2)) := by
  after_results_simp
  rfl

/-- Where the weighted in-degree is positive. -/
theorem T2a_v13 (V : Valuation τ sig (Elt Ideal)) :
    StableHlo.after T2a V (Proc.devRef .tc main_v13)
      = cmpf (F := Ideal) (φ := .f32) .ogt (Cert.Stages.degree (V (Proc.devRef .tc main_v6)) (V (Proc.devRef .tc main_v8))) (broadcastInDim S100000 ![] bcast_S_S100000 (constant (F := Ideal) S_ .f32 0x00000000#32)) := by
  after_results
  rfl
/-- The weighted in-degree to the power minus one half. -/
theorem T2a_v15 (V : Valuation τ sig (Elt Ideal)) :
    StableHlo.after T2a V (Proc.devRef .tc main_v15)
      = Host.powf (F := Ideal) (φ := .f32) (Cert.Stages.degree (V (Proc.devRef .tc main_v6)) (V (Proc.devRef .tc main_v8))) (broadcastInDim S100000 ![] bcast_S_S100000 (constant (F := Ideal) S_ .f32 0xBF000000#32)) := by
  after_results
  rfl
/-- The zero chosen elsewhere. -/
theorem T2a_cst_3 (V : Valuation τ sig (Elt Ideal)) :
    StableHlo.after T2a V (Proc.devRef .tc main_cst_3) = constant (F := Ideal) S_ .f32 0x00000000#32 := by
  after_results
/-- The selection: the power where the test holds, the zero broadcast over the nodes elsewhere. -/
theorem T2w_v16 (V : Valuation τ sig (Elt Ideal)) :
    StableHlo.after T2w V (Proc.devRef .tc main_v16)
      = select (V (Proc.devRef .tc main_v13)) (V (Proc.devRef .tc main_v15)) (broadcastInDim S100000 ![] bcast_S_S100000 (V (Proc.devRef .tc main_cst_3))) := by
  after_results_simp
  simp only [StableHlo.TRef.toBuf, StableHlo.TRef.ofBuf, cast_eq, id]
/-- The source node's factor times the weight, edge by edge. -/
theorem T2b_v24 (V : Valuation τ sig (Elt Ideal)) :
    StableHlo.after T2b V (Proc.devRef .tc main_v24)
      = mulf (F := Ideal) (φ := .f32) (Host.gather gather_S100000_S3300000x1_S3300000_n_0_n_n_0_1_1 (V (Proc.devRef .tc main_v16) : Cert.Stages.FV S100000) (Cert.Stages.gatherIdx (V (Proc.devRef .tc main_v5))))
          (V (Proc.devRef .tc main_v8)) := by
  after_results_simp
  rfl
/-- That product times the target node's factor. -/
theorem T2c_v32 (V : Valuation τ sig (Elt Ideal)) :
    StableHlo.after T2c V (Proc.devRef .tc main_v32)
      = mulf (F := Ideal) (φ := .f32) (V (Proc.devRef .tc main_v24))
          (Host.gather gather_S100000_S3300000x1_S3300000_n_0_n_n_0_1_1 (V (Proc.devRef .tc main_v16) : Cert.Stages.FV S100000) (Cert.Stages.gatherIdx (V (Proc.devRef .tc main_v6)))) := by
  after_results_simp
  rfl
/-- The normalised weights from the endpoint lists and the weights: the four pieces chained, from the last back. -/
theorem T2_v32 (V : Valuation τ sig (Elt Ideal)) :
    StableHlo.after T2 V (Proc.devRef .tc main_v32)
      = Cert.Stages.normWeights (V (Proc.devRef .tc main_v5)) (V (Proc.devRef .tc main_v6)) (V (Proc.devRef .tc main_v8)) := by
  rw [show T2 = T2a ++ T2w ++ T2b ++ T2c from rfl, after_append, after_append, after_append, T2c_v32]
  rw [T2b_v24, T2b_frame _ (r := main_v16) (by decide), T2b_frame _ (r := main_v6) (by decide)]
  rw [T2w_v16, T2w_frame _ (r := main_v5) (by decide), T2w_frame _ (r := main_v8) (by decide), T2w_frame _ (r := main_v6) (by decide)]
  rw [T2a_v13, T2a_v15, T2a_cst_3, T2a_frame _ (r := main_v5) (by decide), T2a_frame _ (r := main_v8) (by decide), T2a_frame _ (r := main_v6) (by decide)]
  rfl
/-- The first transform aggregated over the edges. -/
theorem T3_v46 (V : Valuation τ sig (Elt Ideal)) :
    StableHlo.after T3 V (Proc.devRef .tc main_v46)
      = Cert.Stages.aggregate32 (Cert.Stages.transform1 (V (Proc.devRef .tc main_arg0)) (V (Proc.devRef .tc main_arg3)))
          (V (Proc.devRef .tc main_v5)) (V (Proc.devRef .tc main_v6)) (V (Proc.devRef .tc main_v32)) := by
  after_results_simp
  rfl
/-- The first bias as a row. -/
theorem T3_v47 (V : Valuation τ sig (Elt Ideal)) :
    StableHlo.after T3 V (Proc.devRef .tc main_v47) = Cert.Stages.row32 (V (Proc.devRef .tc main_arg4)) := by
  after_results_simp
  rfl

/-- The second transform. -/
theorem T4_v51 (V : Valuation τ sig (Elt Ideal)) :
    StableHlo.after T4 V (Proc.devRef .tc main_v51)
      = Cert.Stages.transform2 (V (Proc.devRef .tc main_v46)) (V (Proc.devRef .tc main_v47)) (V (Proc.devRef .tc main_arg5)) := by
  after_results_simp
  simp only [StableHlo.TRef.toBuf, StableHlo.TRef.ofBuf, cast_eq, id]
  rfl

/-- The second transform aggregated over the edges. -/
theorem T5_v64 (V : Valuation τ sig (Elt Ideal)) :
    StableHlo.after T5 V (Proc.devRef .tc main_v64)
      = Cert.Stages.aggregate16 (V (Proc.devRef .tc main_v51)) (V (Proc.devRef .tc main_v5)) (V (Proc.devRef .tc main_v6)) (V (Proc.devRef .tc main_v32)) := by
  after_results_simp
  rfl
/-- The second bias as a row. -/
theorem T5_v65 (V : Valuation τ sig (Elt Ideal)) :
    StableHlo.after T5 V (Proc.devRef .tc main_v65) = Cert.Stages.row16 (V (Proc.devRef .tc main_arg6)) := by
  after_results_simp
  rfl

/-- The third transform. -/
theorem T6_v72 (V : Valuation τ sig (Elt Ideal)) :
    StableHlo.after T6 V (Proc.devRef .tc main_v72)
      = Cert.Stages.transform3 (V (Proc.devRef .tc main_v64)) (V (Proc.devRef .tc main_v65)) (V (Proc.devRef .tc main_arg7))
          (Cert.Stages.row1 (V (Proc.devRef .tc main_arg8))) := by
  after_results_simp
  simp only [StableHlo.TRef.toBuf, StableHlo.TRef.ofBuf, cast_eq, id]
  rfl

/-! ## The side conditions of the run: every operation touches TensorCore buffers only and determines its results -/

theorem scopedRefs_eq : (Finset.univ.filter fun b : Ref sig .tc => b.isScoped) = ∅ := by decide
theorem scopedSems_eq : (Finset.univ.filter fun sm : SemLoc sig => sm.isScoped .tc) = ∅ := by decide

/-- A property of every member of two lists holds of every member of their concatenation. -/
theorem forall_append {p : HloOp τ sig (Elt Ideal) → Prop} {l₁ l₂ : List (HloOp τ sig (Elt Ideal))}
    (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem T1_sub : (T1).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub ..⟩
theorem T2a_sub : (T2a).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
theorem T2w_sub : (T2w).Forall fun op => op.bufs ⊆ StableHlo.tcRefs τ sig :=
  ⟨StableHlo.unary_bufs_sub .., StableHlo.unary_bufs_sub .., StableHlo.ternary_bufs_sub ..⟩
theorem T2b_sub : (T2b).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem T2c_sub : (T2c).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem T2_sub : (T2).Forall fun op => op.bufs ⊆ StableHlo.tcRefs τ sig :=
  forall_append (forall_append (forall_append T2a_sub T2w_sub) T2b_sub) T2c_sub
theorem T3_sub : (T3).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub ..⟩
theorem T4_sub : (T4).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
theorem T5_sub : (T5).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub ..⟩
theorem T6_sub : (T6).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub ..⟩

theorem ops_sub : (ops : List (HloOp τ sig (Elt Ideal))).Forall fun op => op.bufs ⊆ StableHlo.tcRefs τ sig :=
  forall_append (forall_append (forall_append T1_sub T2_sub) T3_sub) (forall_append (forall_append T4_sub T5_sub) T6_sub)

theorem T1_fresh : ∀ op ∈ T1, op.fresh = ∅ := by
  intro _ h; (repeat (cases h with | head => rfl | tail _ h => ?_)); exact nomatch h
theorem T2a_fresh : ∀ op ∈ T2a, op.fresh = ∅ := by
  intro _ h; (repeat (cases h with | head => rfl | tail _ h => ?_)); exact nomatch h
theorem T2w_fresh : ∀ op ∈ T2w, op.fresh = ∅ := by
  intro _ h; (repeat (cases h with | head => rfl | tail _ h => ?_)); exact nomatch h
theorem T2b_fresh : ∀ op ∈ T2b, op.fresh = ∅ := by
  intro _ h; (repeat (cases h with | head => rfl | tail _ h => ?_)); exact nomatch h
theorem T2c_fresh : ∀ op ∈ T2c, op.fresh = ∅ := by
  intro _ h; (repeat (cases h with | head => rfl | tail _ h => ?_)); exact nomatch h
theorem T2_fresh : ∀ op ∈ T2, op.fresh = ∅ := by
  intro op h
  rcases List.mem_append.mp h with h | h
  · rcases List.mem_append.mp h with h | h
    · rcases List.mem_append.mp h with h | h
      · exact T2a_fresh op h
      · exact T2w_fresh op h
    · exact T2b_fresh op h
  · exact T2c_fresh op h
theorem T3_fresh : ∀ op ∈ T3, op.fresh = ∅ := by
  intro _ h; (repeat (cases h with | head => rfl | tail _ h => ?_)); exact nomatch h
theorem T4_fresh : ∀ op ∈ T4, op.fresh = ∅ := by
  intro _ h; (repeat (cases h with | head => rfl | tail _ h => ?_)); exact nomatch h
theorem T5_fresh : ∀ op ∈ T5, op.fresh = ∅ := by
  intro _ h; (repeat (cases h with | head => rfl | tail _ h => ?_)); exact nomatch h
theorem T6_fresh : ∀ op ∈ T6, op.fresh = ∅ := by
  intro _ h; (repeat (cases h with | head => rfl | tail _ h => ?_)); exact nomatch h

theorem ops_fresh : ∀ op ∈ ops, op.fresh = ∅ := by
  intro op h
  rcases List.mem_append.mp h with h | h
  · rcases List.mem_append.mp h with h | h
    · rcases List.mem_append.mp h with h | h
      · exact T1_fresh op h
      · exact T2_fresh op h
    · exact T3_fresh op h
  · rcases List.mem_append.mp h with h | h
    · rcases List.mem_append.mp h with h | h
      · exact T4_fresh op h
      · exact T5_fresh op h
    · exact T6_fresh op h

/-! ## The whole line read back -/

/-- The fold of the whole line is the stretches' folds, nested in order. -/
theorem after_ops (V : Valuation τ sig (Elt Ideal)) :
    StableHlo.after ops V
      = StableHlo.after T6 (StableHlo.after T5 (StableHlo.after T4 (StableHlo.after T3 (StableHlo.after T2 (StableHlo.after T1 V))))) := by
  rw [show ops = (T1 ++ T2 ++ T3) ++ (T4 ++ T5 ++ T6) from rfl, after_append, after_append, after_append, after_append, after_append]

/-- The result buffer ends holding the network of the nine arguments' contents: the stretches are read back from the
    last to the first, each one's equation rewriting what it produces into its stage of what it reads, each one's
    frame carrying the buffers it does not write one stretch further back, down to the launch contents. -/
theorem out_eq (V : Valuation τ sig (Elt Ideal)) :
    StableHlo.after ops V (Proc.devRef .tc main_v72)
      = Cert.Stages.network (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) (V (Proc.devRef .tc main_arg8)) := by
  rw [after_ops, T6_v72]
  rw [T5_v64, T5_v65, T5_frame _ (r := main_arg7) (by decide), T5_frame _ (r := main_arg8) (by decide)]
  rw [T4_v51, T4_frame _ (r := main_v5) (by decide), T4_frame _ (r := main_v6) (by decide), T4_frame _ (r := main_v32) (by decide), T4_frame _ (r := main_arg6) (by decide), T4_frame _ (r := main_arg7) (by decide), T4_frame _ (r := main_arg8) (by decide)]
  rw [T3_v46, T3_v47, T3_frame _ (r := main_arg5) (by decide), T3_frame _ (r := main_v5) (by decide), T3_frame _ (r := main_v6) (by decide), T3_frame _ (r := main_v32) (by decide), T3_frame _ (r := main_arg6) (by decide), T3_frame _ (r := main_arg7) (by decide), T3_frame _ (r := main_arg8) (by decide)]
  rw [T2_v32, T2_frame _ (r := main_arg0) (by decide), T2_frame _ (r := main_arg3) (by decide), T2_frame _ (r := main_arg4) (by decide), T2_frame _ (r := main_arg5) (by decide), T2_frame _ (r := main_arg6) (by decide), T2_frame _ (r := main_arg7) (by decide), T2_frame _ (r := main_arg8) (by decide), T2_frame _ (r := main_v5) (by decide), T2_frame _ (r := main_v6) (by decide)]
  rw [T1_v5, T1_v6, T1_v8, T1_frame _ (r := main_arg0) (by decide), T1_frame _ (r := main_arg3) (by decide), T1_frame _ (r := main_arg4) (by decide), T1_frame _ (r := main_arg5) (by decide), T1_frame _ (r := main_arg6) (by decide), T1_frame _ (r := main_arg7) (by decide), T1_frame _ (r := main_arg8) (by decide)]
  rfl

/-- A buffer no stretch writes ends as launched. -/
theorem keep_eq (V : Valuation τ sig (Elt Ideal)) {r : Ref sig .tc} (h₁ : r ∉ W1) (h₂ : r ∉ W2) (h₃ : r ∉ W3) (h₄ : r ∉ W4) (h₅ : r ∉ W5) (h₆ : r ∉ W6) :
    StableHlo.after ops V (Proc.devRef .tc r) = V (Proc.devRef .tc r) := by
  rw [after_ops, T6_frame _ h₆, T5_frame _ h₅, T4_frame _ h₄, T3_frame _ h₃, T2_frame _ h₂, T1_frame _ h₁]

/-- On the one device, from any memory with zero counters: every weakly fair execution of the reference's @main
    terminates with the result buffer at the network of the nine arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72)
          = Cert.Stages.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c => ⟨(h c main_v72).trans (out_eq _),
      (h c main_arg0).trans (keep_eq _ (by decide) (by decide) (by decide) (by decide) (by decide) (by decide)),
      (h c main_arg1).trans (keep_eq _ (by decide) (by decide) (by decide) (by decide) (by decide) (by decide)),
      (h c main_arg2).trans (keep_eq _ (by decide) (by decide) (by decide) (by decide) (by decide) (by decide)),
      (h c main_arg3).trans (keep_eq _ (by decide) (by decide) (by decide) (by decide) (by decide) (by decide)),
      (h c main_arg4).trans (keep_eq _ (by decide) (by decide) (by decide) (by decide) (by decide) (by decide)),
      (h c main_arg5).trans (keep_eq _ (by decide) (by decide) (by decide) (by decide) (by decide) (by decide)),
      (h c main_arg6).trans (keep_eq _ (by decide) (by decide) (by decide) (by decide) (by decide) (by decide)),
      (h c main_arg7).trans (keep_eq _ (by decide) (by decide) (by decide) (by decide) (by decide) (by decide)),
      (h c main_arg8).trans (keep_eq _ (by decide) (by decide) (by decide) (by decide) (by decide) (by decide))⟩)
    (StableHlo.run_seq scopedRefs_eq scopedSems_eq (defs (F := Ideal)) (main (F := Ideal)) (fun _ => ops) main_eq (fun _ => ops_sub) m ρ
      (fun _ => ops_fresh))

end Cert.ReferenceIdeal.RefValue

end
-- ==== Proof.lean ====
/-
  The certificate of a two-layer graph convolution with a final linear layer, on 100000 nodes and 3200000 weighted
  edges (one self-loop per node added), against its plain reference.

  Both programs normalise the edges in the same way (the weighted in-degree of every node by a scatter-add, its
  inverse square root where positive, and for each edge the product of its weight with the two endpoint factors),
  and both then alternate a dense transform with a neighbourhood aggregation: x·W1, aggregate, leaky(· + b1)·W2,
  aggregate, leaky(· + b2)·Wfc + bfc. The kernel program computes the three dense transforms in three pipelined
  regions, each over ten tiles of 10000 rows with the weights and the bias row whole at every tile and the matrix
  product taken into a zero accumulator after a change of float format; the reference computes them as host matrix
  products. At the extended reals a change of float format is the identity and both matrix products are the same
  finite sum over the contracted axis, row by row, so a region's output array IS the reference's transform of the
  region's input arrays (Proof/Region0, Region1, Region2). The normalisation and the two aggregations are the same
  host operations in both programs; they are named once (Proof/Stages) and never opened: the kernel program's host
  stretches (Proof/KernelHost) and the reference's whole run (Proof/RefOps, Proof/RefValue) are read back at those
  names. Proof/KernelRun is the kernel program's run with the result buffer named, Proof/KernelValue the walk through
  its segments that composes the pieces. No law of the extended reals beyond writing the same sums and products on
  both sides is used, and the precondition (finite inputs) is never opened.
-/
import proofs.«158536_j61701500174370_1_alg».proof.Defs
import proofs.«158536_j61701500174370_1_alg».proof.Proof.Gen.Kernel
import proofs.«158536_j61701500174370_1_alg».proof.Proof.Gen.Kernel.Skeleton
import proofs.«158536_j61701500174370_1_alg».proof.Proof.Gen.Kernel.Launch
import proofs.«158536_j61701500174370_1_alg».proof.Proof.Gen.Kernel.Points
import proofs.«158536_j61701500174370_1_alg».proof.Proof.Gen.Kernel.Frame
import proofs.«158536_j61701500174370_1_alg».proof.Proof.Gen.KernelIdeal
import proofs.«158536_j61701500174370_1_alg».proof.Proof.Gen.KernelIdeal.Skeleton
import proofs.«158536_j61701500174370_1_alg».proof.Proof.Gen.KernelIdeal.Launch
import proofs.«158536_j61701500174370_1_alg».proof.Proof.Gen.KernelIdeal.Points
import proofs.«158536_j61701500174370_1_alg».proof.Proof.Gen.KernelIdeal.Frame
import proofs.«158536_j61701500174370_1_alg».proof.Proof.Gen.ReferenceIdeal
import proofs.«158536_j61701500174370_1_alg».proof.Proof.Gen.Pre_finite_inputs
import proofs.«158536_j61701500174370_1_alg».proof.Proof.Stages
import proofs.«158536_j61701500174370_1_alg».proof.Proof.KernelRun
import proofs.«158536_j61701500174370_1_alg».proof.Proof.KernelValue
import proofs.«158536_j61701500174370_1_alg».proof.Proof.Region0
import proofs.«158536_j61701500174370_1_alg».proof.Proof.Region1
import proofs.«158536_j61701500174370_1_alg».proof.Proof.Region2
import proofs.«158536_j61701500174370_1_alg».proof.Proof.KernelHost
import proofs.«158536_j61701500174370_1_alg».proof.Proof.RefValue
import Idealize.ShloMosaic.Adequacy
import Idealize.ShloMosaic.Init

noncomputable section

namespace Cert.Proof

open Idealize.ShloMosaic Idealize.SL.Sem

/-- The regions' values and the host stretches' read-backs, collected for the walk through the kernel program. -/
theorem pieces : Cert.KernelIdeal.KValue.Pieces := ⟨Cert.KernelIdeal.Region0.value, Cert.KernelIdeal.Region1.value, Cert.KernelIdeal.Region2.value,
    Cert.KernelIdeal.HostRead.pre_sources, Cert.KernelIdeal.HostRead.pre_targets, Cert.KernelIdeal.HostRead.pre_norm,
    Cert.KernelIdeal.HostRead.pre_keep_arg0, Cert.KernelIdeal.HostRead.pre_keep_arg1, Cert.KernelIdeal.HostRead.pre_keep_arg2, Cert.KernelIdeal.HostRead.pre_keep_arg3, Cert.KernelIdeal.HostRead.pre_keep_arg4, Cert.KernelIdeal.HostRead.pre_keep_arg5, Cert.KernelIdeal.HostRead.pre_keep_arg6, Cert.KernelIdeal.HostRead.pre_keep_arg7, Cert.KernelIdeal.HostRead.pre_keep_arg8,
    Cert.KernelIdeal.HostRead.mid1_agg, Cert.KernelIdeal.HostRead.mid1_row,
    Cert.KernelIdeal.HostRead.mid1_keep_v5, Cert.KernelIdeal.HostRead.mid1_keep_v6, Cert.KernelIdeal.HostRead.mid1_keep_v32, Cert.KernelIdeal.HostRead.mid1_keep_arg5, Cert.KernelIdeal.HostRead.mid1_keep_arg6, Cert.KernelIdeal.HostRead.mid1_keep_arg7, Cert.KernelIdeal.HostRead.mid1_keep_arg8,
    Cert.KernelIdeal.HostRead.mid2_agg, Cert.KernelIdeal.HostRead.mid2_row16, Cert.KernelIdeal.HostRead.mid2_row1, Cert.KernelIdeal.HostRead.mid2_keep_arg7⟩

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing: there is nothing to preserve. -/
theorem preserves : Cert.preserves_Kernel_KernelIdeal := trivial

/-- Both idealized programs end with the network of `Cert.Stages` applied to the argument arrays: the kernel
    program by the walk through its three regions, the reference by its own run; the two memories agree on the
    arguments, so the two results are equal. -/
theorem algebraic : Cert.algebraic_KernelIdeal_ReferenceIdeal := by
  intro m ρ m' ρ' _ hagree
  refine ⟨fun c => Cert.Stages.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.result pieces m ρ c), (h c).2⟩)
      (Cert.KernelIdeal.KRun.run_named m ρ)
  · refine (θ_run Cert.ReferenceIdeal.defs _ _).mono (fun r h c => ⟨(h c).1.trans ?_, (h c).2⟩) (Cert.ReferenceIdeal.RefValue.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
